-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S_ : Shape := ⟨0, ![]⟩

class Facts : Prop where
  bcast_S_S1x2048x128x192 : S_.BroadcastsInDim S1x2048x128x192 (![] : Fin 0 → Fin S1x2048x128x192.rank)
  reducesTo_S1x2048x128x192_S_d0_1_2_3 : S1x2048x128x192.ReducesTo [0, 1, 2, 3] S_
  h_S_ : 0 < S_.numel
  bcast_S_S1x2048x128x256 : S_.BroadcastsInDim S1x2048x128x256 (![] : Fin 0 → Fin S1x2048x128x256.rank)
  reducesTo_S1x2048x128x256_S_d0_1_2_3 : S1x2048x128x256.ReducesTo [0, 1, 2, 3] S_
  bcast_S_S1x2048x1x64 : S_.BroadcastsInDim S1x2048x1x64 (![] : Fin 0 → Fin S1x2048x1x64.rank)
  reducesTo_S1x2048x1x64_S_d0_1_2_3 : S1x2048x1x64.ReducesTo [0, 1, 2, 3] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  main_v23

def fn {F : FTy → Type} [FloatOps F] (main_arg0 : FVec F S1x2048x128x192 .f32) (main_arg1 : FVec F S1x2048x128x256 .f32) (main_arg2 : FVec F S1x2048x1x64 .f32) (main_arg3 : FVec F S2048x64 .f32) (main_arg4 : FVec F S2048x64 .f32) (main_arg5 : IVec S1x2048 32) : IVec S_ 1 :=
  let main_v0 : FVec F S1x2048x128x192 .f32 := Host.absf main_arg0
  let main_cst : FVec F S_ .f32 := constant S_ .f32 0x7F800000#32
  let main_v1 : FVec F S1x2048x128x192 .f32 := broadcastInDim S1x2048x128x192 ![] bcast_S_S1x2048x128x192 main_cst
  let main_v2 : IVec S1x2048x128x192 1 := cmpf .olt main_v0 main_v1
  let main_c : IVec S_ 1 := constantI S_ 1 1#1
  let main_v3 : IVec S_ 1 := (fun x v => Host.reduce IntOp.andi x v reducesTo_S1x2048x128x192_S_d0_1_2_3 h_S_) main_v2 main_c
  let main_v4 : FVec F S1x2048x128x256 .f32 := Host.absf main_arg1
  let main_cst_0 : FVec F S_ .f32 := constant S_ .f32 0x7F800000#32
  let main_v5 : FVec F S1x2048x128x256 .f32 := broadcastInDim S1x2048x128x256 ![] bcast_S_S1x2048x128x256 main_cst_0
  let main_v6 : IVec S1x2048x128x256 1 := cmpf .olt main_v4 main_v5
  let main_c_1 : IVec S_ 1 := constantI S_ 1 1#1
  let main_v7 : IVec S_ 1 := (fun x v => Host.reduce IntOp.andi x v reducesTo_S1x2048x128x256_S_d0_1_2_3 h_S_) main_v6 main_c_1
  let main_v8 : IVec S_ 1 := andi main_v3 main_v7
  let main_v9 : FVec F S1x2048x1x64 .f32 := Host.absf main_arg2
  let main_cst_2 : FVec F S_ .f32 := constant S_ .f32 0x7F800000#32
  let main_v10 : FVec F S1x2048x1x64 .f32 := broadcastInDim S1x2048x1x64 ![] bcast_S_S1x2048x1x64 main_cst_2
  let main_v11 : IVec S1x2048x1x64 1 := cmpf .olt main_v9 main_v10
  let main_c_3 : IVec S_ 1 := constantI S_ 1 1#1
  let main_v12 : IVec S_ 1 := (fun x v => Host.reduce IntOp.andi x v reducesTo_S1x2048x1x64_S_d0_1_2_3 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S2048x1x64 : Shape := ⟨3, ![2048, 1, 64]⟩
abbrev S2048x128x192 : Shape := ⟨3, ![2048, 128, 192]⟩
abbrev S2048x128x256 : Shape := ⟨3, ![2048, 128, 256]⟩
abbrev S32x128x192 : Shape := ⟨3, ![32, 128, 192]⟩
abbrev S32x1x64 : Shape := ⟨3, ![32, 1, 64]⟩
abbrev S32x128x128 : Shape := ⟨3, ![32, 128, 128]⟩
abbrev S32x128x64 : Shape := ⟨3, ![32, 128, 64]⟩
abbrev S32x128x32 : Shape := ⟨3, ![32, 128, 32]⟩
abbrev S2048x2x128x192 : Shape := ⟨4, ![2048, 2, 128, 192]⟩
abbrev S32x128x256 : Shape := ⟨3, ![32, 128, 256]⟩
abbrev S32x2x128x192 : Shape := ⟨4, ![32, 2, 128, 192]⟩
abbrev S32x1x32 : Shape := ⟨3, ![32, 1, 32]⟩
abbrev S32x1x128x128 : Shape := ⟨4, ![32, 1, 128, 128]⟩
abbrev S32x1x128x64 : Shape := ⟨4, ![32, 1, 128, 64]⟩
abbrev S1x2048x2x128x192 : Shape := ⟨5, ![1, 2048, 2, 128, 192]⟩

abbrev nBuf : Space → Nat
  | .hbm => 34
  | .vmem => 18
  | .smem => 0
  | _ => 0

abbrev bufTy : (tb : Table) → Fin (tcTables nBuf tb) → BufTy
  | .hbm, ⟨0, _⟩ => ⟨S1x2048x128x192, .f32⟩
  | .hbm, ⟨1, _⟩ => ⟨S1x2048x128x256, .f32⟩
  | .hbm, ⟨2, _⟩ => ⟨S1x2048x1x64, .f32⟩
  | .hbm, ⟨3, _⟩ => ⟨S2048x64, .f32⟩
  | .hbm, ⟨4, _⟩ => ⟨S2048x64, .f32⟩
  | .hbm, ⟨5, _⟩ => ⟨S1x2048, .i32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x64, .f32⟩
  | .hbm, ⟨16, _⟩ => ⟨S2048x1x64, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x64, .f32⟩
  | .hbm, ⟨26, _⟩ => ⟨S2048x1x64, .f32⟩
  | .hbm, ⟨27, _⟩ => ⟨S2048x128x192, .f32⟩
  | .hbm, ⟨28, _⟩ => ⟨S2048x128x256, .f32⟩
  | .hbm, ⟨29, _⟩ => ⟨S2048x1x64, .f32⟩
  | .hbm, ⟨30, _⟩ => ⟨S2048x128x192, .f32⟩
  | .hbm, ⟨31, _⟩ => ⟨S2048x2x128x192, .f32⟩
  | .hbm, ⟨32, _⟩ => ⟨S1x2048x128x192, .f32⟩
  | .hbm, ⟨33, _⟩ => ⟨S1x2048x2x128x192, .f32⟩
  | .local _ .vmem, ⟨0, _⟩ => ⟨S32x128x192, .f32⟩
  | .local _ .vmem, ⟨1, _⟩ => ⟨S32x128x192, .f32⟩
  | .local _ .vmem, ⟨2, _⟩ => ⟨S32x1x64, .f32⟩
  | .local _ .vmem, ⟨3, _⟩ => ⟨S32x1x64, .f32⟩
  | .local _ .vmem, ⟨4, _⟩ => ⟨S32x1x64, .f32⟩
  | .local _ .vmem, ⟨5, _⟩ => ⟨S32x1x64, .f32⟩
  | .local _ .vmem, ⟨6, _⟩ => ⟨S32x128x192, .f32⟩
  | .local _ .vmem, ⟨7, _⟩ => ⟨S32x128x192, .f32⟩
  | .local _ .vmem, ⟨8, _⟩ => ⟨S32x128x256, .f32⟩
  | .local _ .vmem, ⟨9, _⟩ => ⟨S32x128x256, .f32⟩
  | .local _ .vmem, ⟨10, _⟩ => ⟨S32x1x64, .f32⟩
  | .local _ .vmem, ⟨11, _⟩ => ⟨S32x1x64, .f32⟩
  | .local _ .vmem, ⟨12, _⟩ => ⟨S32x1x64, .f32⟩
  | .local _ .vmem, ⟨13, _⟩ => ⟨S32x1x64, .f32⟩
  | .local _ .vmem, ⟨14, _⟩ => ⟨S32x1x64, .f32⟩
  | .local _ .vmem, ⟨15, _⟩ => ⟨S32x1x64, .f32⟩
  | .local _ .vmem, ⟨16, _⟩ => ⟨S32x2x128x192, .f32⟩
  | .local _ .vmem, ⟨17, _⟩ => ⟨S32x2x128x192, .f32⟩
  | _, _ => ⟨S1x2048x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S32x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x2x128x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x2048_S2048 : S1x2048.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x64_S2048x1x64_0_2 : S2048x64.BroadcastsInDim S2048x1x64 (![0, 2] : Fin 2 → Fin S2048x1x64.rank)
  shapeCasts_S1x2048x128x192_S2048x128x192 : S1x2048x128x192.ShapeCasts S2048x128x192
  shapeCasts_S1x2048x128x256_S2048x128x256 : S1x2048x128x256.ShapeCasts S2048x128x256
  shapeCasts_S1x2048x1x64_S2048x1x64 : S1x2048x1x64.ShapeCasts S2048x1x64
  inb_S32x128x192_S32x128x128_0_0_0 : ∀ a, (![0, 0, 0] : Fin 3 → Nat) a + S32x128x128.size a ≤ S32x128x192.size a
  h_S32x128x128 : 0 < S32x128x128.numel
  shapeCasts_S32x128x128_S32x128x128 : S32x128x128.ShapeCasts S32x128x128
  inb_S32x128x192_S32x128x64_0_0_128 : ∀ a, (![0, 0, 128] : Fin 3 → Nat) a + S32x128x64.size a ≤ S32x128x192.size a
  h_S32x128x64 : 0 < S32x128x64.numel
  shapeCasts_S32x128x64_S32x128x64 : S32x128x64.ShapeCasts S32x128x64
  inb_S32x1x64_S32x1x64_0_0_0 : ∀ a, (![0, 0, 0] : Fin 3 → Nat) a + S32x1x64.size a ≤ S32x1x64.size a
  h_S32x1x64 : 0 < S32x1x64.numel
  shapeCasts_S32x1x64_S32x1x64 : S32x1x64.ShapeCasts S32x1x64
  slices_S32x128x64_o0_0_32_S32x128x32 : S32x128x64.Slices ![0, 0, 32] S32x128x32
  slices_S32x128x64_o0_0_0_S32x128x32 : S32x128x64.Slices ![0, 0, 0] S32x128x32
  concatenates_S32x128x32_S32x128x32_S32x128x64_d2 : Shape.Concatenates [S32x128x32, S32x128x32] S32x128x64 2
  broadcasts_S32x1x64_S32x128x64 : S32x1x64.Broadcasts S32x128x64
  inb_S32x128x256_S32x128x128_0_0_0 : ∀ a, (![0, 0, 0] : Fin 3 → Nat) a + S32x128x128.size a ≤ S32x128x256.size a
  inb_S32x128x256_S32x128x128_0_0_128 : ∀ a, (![0, 0, 128] : Fin 3 → Nat) a + S32x128x128.size a ≤ S32x128x256.size a
  slices_S32x1x64_o0_0_32_S32x1x32 : S32x1x64.Slices ![0, 0, 32] S32x1x32
  slices_S32x1x64_o0_0_0_S32x1x32 : S32x1x64.Slices ![0, 0, 0] S32x1x32
  concatenates_S32x1x32_S32x1x32_S32x1x64_d2 : Shape.Concatenates [S32x1x32, S32x1x32] S32x1x64 2
  inb_S32x2x128x192_S32x1x128x128_0_0_0_0 : ∀ a, (![0, 0, 0, 0] : Fin 4 → Nat) a + S32x1x128x128.size a ≤ S32x2x128x192.size a
  h_S32x1x128x128 : 0 < S32x1x128x128.numel
  shapeCasts_S32x1x128x128_S32x128x128 : S32x1x128x128.ShapeCasts S32x128x128
  shapeCasts_S32x128x128_S32x1x128x128 : S32x128x128.ShapeCasts S32x1x128x128
  inb_S32x2x128x192_S32x1x128x64_0_0_0_128 : ∀ a, (![0, 0, 0, 128] : Fin 4 → Nat) a + S32x1x128x64.size a ≤ S32x2x128x192.size a
  h_S32x1x128x64 : 0 < S32x1x128x64.numel
  shapeCasts_S32x1x128x64_S32x128x64 : S32x1x128x64.ShapeCasts S32x128x64
  shapeCasts_S32x128x64_S32x1x128x64 : S32x128x64.ShapeCasts S32x1x128x64
  inb_S32x2x128x192_S32x1x128x128_0_1_0_0 : ∀ a, (![0, 1, 0, 0] : Fin 4 → Nat) a + S32x1x128x128.size a ≤ S32x2x128x192.size a
  inb_S32x2x128x192_S32x1x128x64_0_1_0_128 : ∀ a, (![0, 1, 0, 128] : Fin 4 → Nat) a + S32x1x128x64.size a ≤ S32x2x128x192.size a
  bcast_S2048x128x192_S1x2048x128x192_1_2_3 : S2048x128x192.BroadcastsInDim S1x2048x128x192 (![1, 2, 3] : Fin 3 → Fin S1x2048x128x192.rank)
  bcast_S2048x2x128x192_S1x2048x2x128x192_1_2_3_4 : S2048x2x128x192.BroadcastsInDim S1x2048x2x128x192 (![1, 2, 3, 4] : Fin 4 → Fin S1x2048x2x128x192.rank)
  gather_S2048x64_S2048x1_S2048x64_1_0_n_n_0_1_164_wf : GatherDims.WF S2048x64 S2048x1 S2048x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x192.size a ≤ S2048x128x192.size a
  hwx0_0 : ∀ i : grid0.Coords, EltTy.bits .f32 = 32 ∨ (Rect.block (s := S2048x128x192) S32x128x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x64.size a ≤ S2048x1x64.size a
  hwx0_1 : ∀ i : grid0.Coords, EltTy.bits .f32 = 32 ∨ (Rect.block (s := S2048x1x64) S32x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x64.size a ≤ S2048x1x64.size a
  hwx0_2 : ∀ i : grid0.Coords, EltTy.bits .f32 = 32 ∨ (Rect.block (s := S2048x1x64) S32x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x192.size a ≤ S2048x128x192.size a
  hwx0_3 : ∀ i : grid0.Coords, EltTy.bits .f32 = 32 ∨ (Rect.block (s := S2048x128x192) S32x128x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x256.size a ≤ S2048x128x256.size a
  hwx1_0 : ∀ i : grid1.Coords, EltTy.bits .f32 = 32 ∨ (Rect.block (s := S2048x128x256) S32x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x64.size a ≤ S2048x1x64.size a
  hwx1_1 : ∀ i : grid1.Coords, EltTy.bits .f32 = 32 ∨ (Rect.block (s := S2048x1x64) S32x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1x64.size a ≤ S2048x1x64.size a
  hwx1_2 : ∀ i : grid1.Coords, EltTy.bits .f32 = 32 ∨ (Rect.block (s := S2048x1x64) S32x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1x64.size a ≤ S2048x1x64.size a
  hwx1_3 : ∀ i : grid1.Coords, EltTy.bits .f32 = 32 ∨ (Rect.block (s := S2048x1x64) S32x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x2x128x192.size a ≤ S2048x2x128x192.size a
  hwx1_4 : ∀ i : grid1.Coords, EltTy.bits .f32 = 32 ∨ (Rect.block (s := S2048x2x128x192) S32x2x128x192.size (cc1_transform_4 i) (hinb1_4 i)).WholeWords (EltTy.packing .f32)

variable [Facts₀]

def gather_S2048x64_S2048x1_S2048x64_1_0_n_n_0_1_164 : GatherDims S2048x64 S2048x1 S2048x64 where
  offsetDims := [1]
  collapsedSliceDims := [0]
  operandBatchingDims := []
  startIndicesBatchingDims := []
  startIndexMap := [0]
  indexVectorDim := 1
  sliceSizes := ![1, 64]
  wf := gather_S2048x64_S2048x1_S2048x64_1_0_n_n_0_1_164_wf

abbrev win0_0 : Pipeline.Window sig grid0 :=
  Pipeline.Window.ofSpec (Memref.whole main_v17) S32x128x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x128x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S32x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S32x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S32x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S32x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S32x2x128x192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x2048x128x192 : Shape := ⟨4, ![1, 2048, 128, 192]⟩
abbrev S1x2048x128x256 : Shape := ⟨4, ![1, 2048, 128, 256]⟩
abbrev S1x2048x1x64 : Shape := ⟨4, ![1, 2048, 1, 64]⟩
abbrev S2048x64 : Shape := ⟨2, ![2048, 64]⟩
abbrev S1x2048 : Shape := ⟨2, ![1, 2048]⟩
abbrev S_ : Shape := ⟨0, ![]⟩
abbrev S1x2048x1 : Shape := ⟨3, ![1, 2048, 1]⟩
abbrev S1x2048x64 : Shape := ⟨3, ![1, 2048, 64]⟩
abbrev S1x2048x128x128 : Shape := ⟨4, ![1, 2048, 128, 128]⟩
abbrev S1x2048x128x64 : Shape := ⟨4, ![1, 2048, 128, 64]⟩
abbrev S1x2048x128x32 : Shape := ⟨4, ![1, 2048, 128, 32]⟩
abbrev S1x2048x1x32 : Shape := ⟨4, ![1, 2048, 1, 32]⟩
abbrev S1x2048x1x128x192 : Shape := ⟨5, ![1, 2048, 1, 128, 192]⟩
abbrev S1x2048x2x128x192 : Shape := ⟨5, ![1, 2048, 2, 128, 192]⟩

abbrev nBuf : Space → Nat
  | .hbm => 55
  | .vmem => 0
  | .smem => 0
  | _ => 0

abbrev bufTy : (tb : Table) → Fin (tcTables nBuf tb) → BufTy
  | .hbm, ⟨0, _⟩ => ⟨S1x2048x128x192, .f32⟩
  | .hbm, ⟨1, _⟩ => ⟨S1x2048x128x256, .f32⟩
  | .hbm, ⟨2, _⟩ => ⟨S1x2048x1x64, .f32⟩
  | .hbm, ⟨3, _⟩ => ⟨S2048x64, .f32⟩
  | .hbm, ⟨4, _⟩ => ⟨S2048x64, .f32⟩
  | .hbm, ⟨5, _⟩ => ⟨S1x2048, .i32⟩
  | .hbm, ⟨6, _⟩ => ⟨S_, .i32⟩
  | .hbm, ⟨7, _⟩ => ⟨S1x2048, .i32⟩
  | .hbm, ⟨8, _⟩ => ⟨S1x2048, .i1⟩
  | .hbm, ⟨9, _⟩ => ⟨S_, .i32⟩
  | .hbm, ⟨10, _⟩ => ⟨S1x2048, .i32⟩
  | .hbm, ⟨11, _⟩ => ⟨S1x2048, .i32⟩
  | .hbm, ⟨12, _⟩ => ⟨S1x2048, .i32⟩
  | .hbm, ⟨13, _⟩ => ⟨S1x2048x1, .i32⟩
  | .hbm, ⟨14, _⟩ => ⟨S1x2048x64, .f32⟩
  | .hbm, ⟨15, _⟩ => ⟨S1x2048x1x64, .f32⟩
  | .hbm, ⟨16, _⟩ => ⟨S_, .i32⟩
  | .hbm, ⟨17, _⟩ => ⟨S1x2048, .i32⟩
  | .hbm, ⟨18, _⟩ => ⟨S1x2048, .i1⟩
  | .hbm, ⟨19, _⟩ => ⟨S_, .i32⟩
  | .hbm, ⟨20, _⟩ => ⟨S1x2048, .i32⟩
  | .hbm, ⟨21, _⟩ => ⟨S1x2048, .i32⟩
  | .hbm, ⟨22, _⟩ => ⟨S1x2048, .i32⟩
  | .hbm, ⟨23, _⟩ => ⟨S1x2048x1, .i32⟩
  | .hbm, ⟨24, _⟩ => ⟨S1x2048x64, .f32⟩
  | .hbm, ⟨25, _⟩ => ⟨S1x2048x1x64, .f32⟩
  | .hbm, ⟨26, _⟩ => ⟨S1x2048x128x128, .f32⟩
  | .hbm, ⟨27, _⟩ => ⟨S1x2048x128x64, .f32⟩
  | .hbm, ⟨28, _⟩ => ⟨S1x2048x128x64, .f32⟩
  | .hbm, ⟨29, _⟩ => ⟨S1x2048x128x64, .f32⟩
  | .hbm, ⟨30, _⟩ => ⟨S1x2048x128x32, .f32⟩
  | .hbm, ⟨31, _⟩ => ⟨S1x2048x128x32, .f32⟩
  | .hbm, ⟨32, _⟩ => ⟨S1x2048x128x32, .f32⟩
  | .hbm, ⟨33, _⟩ => ⟨S1x2048x128x64, .f32⟩
  | .hbm, ⟨34, _⟩ => ⟨S1x2048x128x64, .f32⟩
  | .hbm, ⟨35, _⟩ => ⟨S1x2048x128x64, .f32⟩
  | .hbm, ⟨36, _⟩ => ⟨S1x2048x128x64, .f32⟩
  | .hbm, ⟨37, _⟩ => ⟨S1x2048x128x192, .f32⟩
  | .hbm, ⟨38, _⟩ => ⟨S1x2048x128x128, .f32⟩
  | .hbm, ⟨39, _⟩ => ⟨S1x2048x128x128, .f32⟩
  | .hbm, ⟨40, _⟩ => ⟨S1x2048x1x64, .f32⟩
  | .hbm, ⟨41, _⟩ => ⟨S1x2048x1x32, .f32⟩
  | .hbm, ⟨42, _⟩ => ⟨S1x2048x1x32, .f32⟩
  | .hbm, ⟨43, _⟩ => ⟨S1x2048x1x32, .f32⟩
  | .hbm, ⟨44, _⟩ => ⟨S1x2048x1x64, .f32⟩
  | .hbm, ⟨45, _⟩ => ⟨S1x2048x1x64, .f32⟩
  | .hbm, ⟨46, _⟩ => ⟨S1x2048x1x64, .f32⟩
  | .hbm, ⟨47, _⟩ => ⟨S1x2048x128x64, .f32⟩
  | .hbm, ⟨48, _⟩ => ⟨S1x2048x128x192, .f32⟩
  | .hbm, ⟨49, _⟩ => ⟨S_, .i32⟩
  | .hbm, ⟨50, _⟩ => ⟨S_, .f32⟩
  | .hbm, ⟨51, _⟩ => ⟨S1x2048x128x192, .f32⟩
  | .hbm, ⟨52, _⟩ => ⟨S1x2048x1x128x192, .f32⟩
  | .hbm, ⟨53, _⟩ => ⟨S1x2048x1x128x192, .f32⟩
  | .hbm, ⟨54, _⟩ => ⟨S1x2048x2x128x192, .f32⟩
  | _, _ => ⟨S1x2048x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_call0_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x64_S1x2048x1x64_0_1_3 : S1x2048x64.BroadcastsInDim S1x2048x1x64 (![0, 1, 3] : Fin 3 → Fin S1x2048x1x64.rank)
  slices_S1x2048x128x192_S1x2048x128x128_0_0_0_0 : S1x2048x128x192.Slices ![0, 0, 0, 0] S1x2048x128x128
  slices_S1x2048x128x192_S1x2048x128x64_0_0_0_128 : S1x2048x128x192.Slices ![0, 0, 0, 128] S1x2048x128x64
  bcast_S1x2048x1x64_S1x2048x128x64_0_1_2_3 : S1x2048x1x64.BroadcastsInDim S1x2048x128x64 (![0, 1, 2, 3] : Fin 4 → Fin S1x2048x128x64.rank)
  slices_S1x2048x128x64_S1x2048x128x32_0_0_0_32 : S1x2048x128x64.Slices ![0, 0, 0, 32] S1x2048x128x32
  slices_S1x2048x128x64_S1x2048x128x32_0_0_0_0 : S1x2048x128x64.Slices ![0, 0, 0, 0] S1x2048x128x32
  concatenates_S1x2048x128x32_S1x2048x128x32_S1x2048x128x64_d3 : Shape.Concatenates [S1x2048x128x32, S1x2048x128x32] S1x2048x128x64 3
  concatenates_S1x2048x128x128_S1x2048x128x64_S1x2048x128x192_d3 : Shape.Concatenates [S1x2048x128x128, S1x2048x128x64] S1x2048x128x192 3
  slices_S1x2048x128x256_S1x2048x128x128_0_0_0_0 : S1x2048x128x256.Slices ![0, 0, 0, 0] S1x2048x128x128
  slices_S1x2048x128x256_S1x2048x128x128_0_0_0_128 : S1x2048x128x256.Slices ![0, 0, 0, 128] S1x2048x128x128
  slices_S1x2048x1x64_S1x2048x1x32_0_0_0_32 : S1x2048x1x64.Slices ![0, 0, 0, 32] S1x2048x1x32
  slices_S1x2048x1x64_S1x2048x1x32_0_0_0_0 : S1x2048x1x64.Slices ![0, 0, 0, 0] S1x2048x1x32
  concatenates_S1x2048x1x32_S1x2048x1x32_S1x2048x1x64_d3 : Shape.Concatenates [S1x2048x1x32, S1x2048x1x32] S1x2048x1x64 3
  pads_S1x2048x128x128_S1x2048x128x192_000_000_000_0640 : S1x2048x128x128.Pads (![0, 0, 0, 0] : Fin 4 → Nat) ![0, 0, 0, 64] ![0, 0, 0, 0] S1x2048x128x192
  h_S_ : 0 < S_.numel
  bcast_S1x2048x128x192_S1x2048x1x128x192_0_1_3_4 : S1x2048x128x192.BroadcastsInDim S1x2048x1x128x192 (![0, 1, 3, 4] : Fin 4 → Fin S1x2048x1x128x192.rank)
  concatenates_S1x2048x1x128x192_S1x2048x1x128x192_S1x2048x2x128x192_d2 : Shape.Concatenates [S1x2048x1x128x192, S1x2048x1x128x192] S1x2048x2x128x192 2
  gather_S2048x64_S1x2048x1_S1x2048x64_2_0_n_n_0_2_164_wf : GatherDims.WF S2048x64 S1x2048x1 S1x2048x64 [2] [0] [] [0] [] 2 ![1, 64]

variable [Facts₀]

def gather_S2048x64_S1x2048x1_S1x2048x64_2_0_n_n_0_2_164 : GatherDims S2048x64 S1x2048x1 S1x2048x64 where
  offsetDims := [2]
  collapsedSliceDims := [0]
  operandBatchingDims := []
  startIndicesBatchingDims := []
  startIndexMap := [0]
  indexVectorDim := 2
  sliceSizes := ![1, 64]
  wf := gather_S2048x64_S1x2048x1_S1x2048x64_2_0_n_n_0_2_164_wf

class Facts : Prop extends Facts₀ where

variable [Facts]
-- ==== Proof.Spec.lean ====
/-
  What both programs compute, as plain functions of the argument arrays, index by index.

  A row of rotary embedding: for a 64-vector `f` and the table rows `c`, `s` of its sequence position,
  entry `e` is `f e * c e + (rot f) e * s e`, where `rot f` is "rotate half": `-(f (e + 32))` for `e < 32` and
  `f (e - 32)` for `e ≥ 32`.

  * q's result: lanes 0..127 of every (position, head) row are copied, lanes 128..191 are the rotary embedding of
    lanes 128..191 of that row.
  * kv's result, a pair of 192-lane rows per (position, head): slot 0 is kv's lanes 0..127 followed by the rotary
    embedding of k_pe's row at that position (the same for every head); slot 1 is kv's lanes 128..255 followed by
    64 zeros.
  * the table row of a position `p`: a negative `p` is moved up by 2048 once, then the signed value is clamped
    into [0, 2047].
-/
import Idealize.ShloMosaic.PureOps.Ideal
import Idealize.ShloMosaic.Lib.ValueIdx

noncomputable section

namespace Cert.RopeSpec

open Idealize.ShloMosaic Idealize.ShloMosaic.ValueIdx

/-! ## One row -/

/-- Rotate half: entry `e` is minus entry `e + 32` below 32, entry `e - 32` from 32 on. -/
def rot (f : Fin 64 → EReal) (e : Fin 64) : EReal :=
  if h : e.val < 32 then -(f ⟨e.val + 32, by omega⟩) else f ⟨e.val - 32, by omega⟩

/-- The rotary embedding of a 64-vector `f` with table rows `c` and `s`. -/
def rope (f c s : Fin 64 → EReal) (e : Fin 64) : EReal := f e * c e + rot f e * s e

/-- A 192-lane row of q's result from the same row `qr` of q: lanes below 128 copied, the rest embedded. -/
def qRow (qr : Fin 192 → EReal) (c s : Fin 64 → EReal) (d : Fin 192) : EReal :=
  if hd : d.val < 128 then qr d
  else rope (fun e => qr ⟨128 + e.val, by omega⟩) c s ⟨d.val - 128, by omega⟩

/-- A 192-lane row of kv's result in slot `j`, from the 256-lane row `kvr` of kv and the row `pe` of k_pe. -/
def kvRow (kvr : Fin 256 → EReal) (pe c s : Fin 64 → EReal) (j : Fin 2) (d : Fin 192) : EReal :=
  if j.val = 0 then
    (if hd : d.val < 128 then kvr ⟨d.val, by omega⟩ else rope pe c s ⟨d.val - 128, by omega⟩)
  else
    (if hd : d.val < 128 then kvr ⟨128 + d.val, by omega⟩ else 0)

/-! ## The table row of a position -/

/-- The row of a 2048-row table that position word `p` reads. -/
def row (p : BitVec 32) : Fin 2048 :=
  ⟨min (Scalar.select (IntOp.cmpi .slt p 0#32) (IntOp.addi p 2048#32) p).toInt.toNat 2047,
    Nat.lt_succ_of_le (Nat.min_le_right _ _)⟩

/-- Entry `e` of the table row that sequence position `s` reads. -/
def tab (x : FVec Ideal ⟨2, ![2048, 64]⟩ .f32) (pos : IVec ⟨2, ![1, 2048]⟩ 32) (s : Fin 2048) (e : Fin 64) : EReal :=
  x (ix2 (row (pos (ix2 (0 : Fin 1) s))) e)

/-! ## The two results as functions of the six arguments -/

/-- q's result at position `s`, head `h`, lane `d`. -/
def qAt (q : FVec Ideal ⟨4, ![1, 2048, 128, 192]⟩ .f32) (cos sin : FVec Ideal ⟨2, ![2048, 64]⟩ .f32)
    (pos : IVec ⟨2, ![1, 2048]⟩ 32) (s : Fin 2048) (h : Fin 128) (d : Fin 192) : EReal :=
  qRow (fun d' => q (ix4 (0 : Fin 1) s h d')) (tab cos pos s) (tab sin pos s) d

/-- q's result array. -/
def qOut (q : FVec Ideal ⟨4, ![1, 2048, 128, 192]⟩ .f32) (cos sin : FVec Ideal ⟨2, ![2048, 64]⟩ .f32)
    (pos : IVec ⟨2, ![1, 2048]⟩ 32) : FVec Ideal ⟨4, ![1, 2048, 128, 192]⟩ .f32 :=
  fun i => qAt q cos sin pos (i 1) (i 2) (i 3)

theorem qOut_ix4 (q : FVec Ideal ⟨4, ![1, 2048, 128, 192]⟩ .f32) (cos sin : FVec Ideal ⟨2, ![2048, 64]⟩ .f32)
    (pos : IVec ⟨2, ![1, 2048]⟩ 32) (a : Fin 1) (s : Fin 2048) (h : Fin 128) (d : Fin 192) :
    qOut q cos sin pos (ix4 a s h d) = qAt q cos sin pos s h d := rfl

/-- kv's result at position `s`, slot `j`, head `h`, lane `d`. -/
def kvAt (kv : FVec Ideal ⟨4, ![1, 2048, 128, 256]⟩ .f32) (kpe : FVec Ideal ⟨4, ![1, 2048, 1, 64]⟩ .f32)
    (cos sin : FVec Ideal ⟨2, ![2048, 64]⟩ .f32) (pos : IVec ⟨2, ![1, 2048]⟩ 32)
    (s : Fin 2048) (j : Fin 2) (h : Fin 128) (d : Fin 192) : EReal :=
  kvRow (fun d' => kv (ix4 (0 : Fin 1) s h d')) (fun e => kpe (ix4 (0 : Fin 1) s (0 : Fin 1) e))
    (tab cos pos s) (tab sin pos s) j d

/-- kv's result array. -/
def kvOut (kv : FVec Ideal ⟨4, ![1, 2048, 128, 256]⟩ .f32) (kpe : FVec Ideal ⟨4, ![1, 2048, 1, 64]⟩ .f32)
    (cos sin : FVec Ideal ⟨2, ![2048, 64]⟩ .f32) (pos : IVec ⟨2, ![1, 2048]⟩ 32) :
    FVec Ideal ⟨5, ![1, 2048, 2, 128, 192]⟩ .f32 :=
  fun i => kvAt kv kpe cos sin pos (i 1) (i 2) (i 3) (i 4)

theorem kvOut_ix5 (kv : FVec Ideal ⟨4, ![1, 2048, 128, 256]⟩ .f32) (kpe : FVec Ideal ⟨4, ![1, 2048, 1, 64]⟩ .f32)
    (cos sin : FVec Ideal ⟨2, ![2048, 64]⟩ .f32) (pos : IVec ⟨2, ![1, 2048]⟩ 32)
    (a : Fin 1) (s : Fin 2048) (j : Fin 2) (h : Fin 128) (d : Fin 192) :
    kvOut kv kpe cos sin pos (ix5 a s j h d) = kvAt kv kpe cos sin pos s j h d := rfl

/-! ## The same rows over arrays without the leading unit axis (how the two kernels see them)

Stated for any number `n` of sequence positions: at `n = 2048` it is a kernel's whole result array, at `n = 32` the
block one grid point computes from its operand blocks. -/

/-- The q kernel's result over `n` positions from its three operands: q as [n, 128, 192], the gathered cos and sin
    rows as [n, 1, 64]. -/
def qArr {n : Nat} (Q : FVec Ideal ⟨3, ![n, 128, 192]⟩ .f32) (C S : FVec Ideal ⟨3, ![n, 1, 64]⟩ .f32) :
    FVec Ideal ⟨3, ![n, 128, 192]⟩ .f32 :=
  fun i => qRow (fun d' => Q (ix3 (i 0) (i 1) d')) (fun e => C (ix3 (i 0) (0 : Fin 1) e))
    (fun e => S (ix3 (i 0) (0 : Fin 1) e)) (i 2)

theorem qArr_ix3 {n : Nat} (Q : FVec Ideal ⟨3, ![n, 128, 192]⟩ .f32) (C S : FVec Ideal ⟨3, ![n, 1, 64]⟩ .f32)
    (a : Fin n) (h : Fin 128) (d : Fin 192) :
    qArr Q C S (ix3 a h d) = qRow (fun d' => Q (ix3 a h d')) (fun e => C (ix3 a (0 : Fin 1) e))
      (fun e => S (ix3 a (0 : Fin 1) e)) d := rfl

/-- The kv kernel's result over `n` positions from its four operands: kv as [n, 128, 256], k_pe and the gathered cos
    and sin rows as [n, 1, 64]. -/
def kvArr {n : Nat} (KV : FVec Ideal ⟨3, ![n, 128, 256]⟩ .f32) (PE C S : FVec Ideal ⟨3, ![n, 1, 64]⟩ .f32) :
    FVec Ideal ⟨4, ![n, 2, 128, 192]⟩ .f32 :=
  fun i => kvRow (fun d' => KV (ix3 (i 0) (i 2) d')) (fun e => PE (ix3 (i 0) (0 : Fin 1) e))
    (fun e => C (ix3 (i 0) (0 : Fin 1) e)) (fun e => S (ix3 (i 0) (0 : Fin 1) e)) (i 1) (i 3)

theorem kvArr_ix4 {n : Nat} (KV : FVec Ideal ⟨3, ![n, 128, 256]⟩ .f32) (PE C S : FVec Ideal ⟨3, ![n, 1, 64]⟩ .f32)
    (a : Fin n) (j : Fin 2) (h : Fin 128) (d : Fin 192) :
    kvArr KV PE C S (ix4 a j h d) = kvRow (fun d' => KV (ix3 a h d')) (fun e => PE (ix3 a (0 : Fin 1) e))
      (fun e => C (ix3 a (0 : Fin 1) e)) (fun e => S (ix3 a (0 : Fin 1) e)) j d := rfl

/-- On the extended reals subtracting from zero is negation (also at the infinities). -/
theorem zero_sub_eq_neg (x : EReal) : (0 : EReal) - x = -x := by
  rw [sub_eq_add_neg, zero_add]

end Cert.RopeSpec

end
-- ==== Proof.KernelRun.lean ====
/-
  The idealized kernel program's run, with its two result buffers named.

  @main is four segments: host operations, the q call, the kv call, two host operations. The generated frame follows
  every unscoped buffer's contents through the four segment boundaries; after the last one they are `W4`. Here the
  same run is stated with a post that keeps, besides the six arguments, what the two result buffers hold at the end:
  their contents at that last boundary.
-/
import proofs.«138987_j61521111548175_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the two result buffers hold what the
    last segment boundary's contents say, and the six arguments are as launched. -/
theorem run : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Results

end
-- ==== Proof.QPayload.lean ====
/-
  The q kernel's arithmetic, read at an index.

  One grid point loads lanes 128..191 of a 32-position block of q (a [32, 128, 64] vector `v`) and the block's cos and
  sin rows ([32, 1, 64] vectors `c`, `s`), and stores `v * c + rot v * s`, where `rot v` joins `0 - v[.., 32:]` with
  `v[.., :32]` along the last axis and the rows are broadcast over the 128 heads. Entry (a, h, e) of what it stores
  is the rotary embedding of row (a, h) of `v` with rows `a` of `c` and `s`, at lane `e`.
-/
import proofs.«138987_j61521111548175_2_alg».proof.Proof.Spec
import proofs.«138987_j61521111548175_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.QPayload

open Cert.KernelIdeal Cert.KernelIdeal.Gen Cert.RopeSpec
open Idealize.ShloMosaic Idealize.ShloMosaic.ValueIdx

/-- The zero word is the real number zero. -/
theorem zero_word : (Scalar.ofBits (F := Ideal) .f32 0x00000000#32 : EReal) = 0 := Ideal.ofBits_zero_f32

/-- A [32, 1, 64] row vector broadcast over the heads reads its row. -/
theorem bcast_row (x : FVec Ideal S32x1x64 .f32) (a : Fin 32) (h : Fin 128) (e : Fin 64) :
    broadcastTo S32x128x64 x broadcasts_S32x1x64_S32x128x64 (ix3 a h e) = x (ix3 a (0 : Fin 1) e) :=
  broadcastTo_apply x broadcasts_S32x1x64_S32x128x64 (ix3 a h e) (ix3 a (0 : Fin 1) e) (fun b => match b with
    | ⟨0, _⟩ => by show a.val = if (32 : Nat) = 1 then 0 else a.val; rw [if_neg (by decide)]
    | ⟨1, _⟩ => by show 0 = if (1 : Nat) = 1 then 0 else h.val; rw [if_pos rfl]
    | ⟨2, _⟩ => by show e.val = if (64 : Nat) = 1 then 0 else e.val; rw [if_neg (by decide)])

/-- The upper half of the lanes, read at an index. -/
theorem slice_hi (v : FVec Ideal S32x128x64 .f32) (a : Fin 32) (h : Fin 128) (e : Fin 32) :
    extractStridedSlice S32x128x32 ![0, 0, 32] v slices_S32x128x64_o0_0_32_S32x128x32 (ix3 a h e)
      = v (ix3 a h ⟨e.val + 32, by omega⟩) :=
  extractStridedSlice_apply _ v _ (ix3 a h e) (ix3 a h ⟨e.val + 32, by omega⟩) (fun b => match b with
    | ⟨0, _⟩ => by show a.val = 0 + a.val; omega
    | ⟨1, _⟩ => by show h.val = 0 + h.val; omega
    | ⟨2, _⟩ => by show e.val + 32 = 32 + e.val; omega)

/-- The lower half of the lanes, read at an index. -/
theorem slice_lo (v : FVec Ideal S32x128x64 .f32) (a : Fin 32) (h : Fin 128) (e : Fin 32) :
    extractStridedSlice S32x128x32 ![0, 0, 0] v slices_S32x128x64_o0_0_0_S32x128x32 (ix3 a h e)
      = v (ix3 a h ⟨e.val, by omega⟩) :=
  extractStridedSlice_apply _ v _ (ix3 a h e) (ix3 a h ⟨e.val, by omega⟩) (fun b => match b with
    | ⟨0, _⟩ => by show a.val = 0 + a.val; omega
    | ⟨1, _⟩ => by show h.val = 0 + h.val; omega
    | ⟨2, _⟩ => by show e.val = 0 + e.val; omega)

/-- The joined vector `[0 - v[.., 32:], v[.., :32]]` is "rotate half" of each row. -/
theorem rot_apply (v : FVec Ideal S32x128x64 .f32) (a : Fin 32) (h : Fin 128) (e : Fin 64) :
    concatenate S32x128x64 2
        [⟨S32x128x32, subf (broadcast S32x128x32 (Scalar.ofBits (F := Ideal) .f32 0x00000000#32))
            (extractStridedSlice S32x128x32 ![0, 0, 32] v slices_S32x128x64_o0_0_32_S32x128x32)⟩,
          ⟨S32x128x32, extractStridedSlice S32x128x32 ![0, 0, 0] v slices_S32x128x64_o0_0_0_S32x128x32⟩]
        concatenates_S32x128x32_S32x128x32_S32x128x64_d2 (ix3 a h e)
      = rot (fun e' => v (ix3 a h e')) e := by
  unfold rot
  by_cases hlt : e.val < 32
  · rw [dif_pos hlt]
    refine (concatenate_pair_apply_left (s₁ := S32x128x32) (s₂ := S32x128x32) (2 : Fin 3) _ _ concatenates_S32x128x32_S32x128x32_S32x128x64_d2 (ix3 a h e) rfl
      (ix3 a h (⟨e.val, hlt⟩ : Fin 32)) (fun b => match b with
        | ⟨0, _⟩ => rfl
        | ⟨1, _⟩ => rfl
        | ⟨2, _⟩ => rfl)).trans ?_
    show (Scalar.ofBits (F := Ideal) .f32 0x00000000#32 : EReal) - _ = _
    rw [zero_word, zero_sub_eq_neg, slice_hi]
  · rw [dif_neg hlt]
    refine (concatenate_pair_apply_right (s₁ := S32x128x32) (s₂ := S32x128x32) (2 : Fin 3) _ _ concatenates_S32x128x32_S32x128x32_S32x128x64_d2 (ix3 a h e) rfl rfl
      (ix3 a h (⟨e.val - 32, by omega⟩ : Fin 32)) (fun b hb => match b, hb with
        | ⟨0, _⟩, _ => rfl
        | ⟨1, _⟩, _ => rfl
        | ⟨2, _⟩, hb => absurd rfl hb) (by show (e.val - 32) + 32 = e.val; omega)).trans ?_
    rw [slice_lo]

/-- What the second store writes, at an index: the rotary embedding of the row. -/
theorem pay2_apply (v : Vec Ideal S32x128x64 .f32) (c s : Vec Ideal S32x1x64 .f32) (a : Fin 32) (h : Fin 128) (e : Fin 64) :
    k0_pay2 (F := Ideal) v c s (ix3 a h e)
      = rope (fun e' => v (ix3 a h e')) (fun e' => c (ix3 a (0 : Fin 1) e')) (fun e' => s (ix3 a (0 : Fin 1) e')) e := by
  have e3 : shapeCast S32x128x64 v shapeCasts_S32x128x64_S32x128x64 = v := shapeCast_self _ _
  have e5 : shapeCast S32x1x64 c shapeCasts_S32x1x64_S32x1x64 = c := shapeCast_self _ _
  have e7 : shapeCast S32x1x64 s shapeCasts_S32x1x64_S32x1x64 = s := shapeCast_self _ _
  unfold k0_pay2 rope
  simp only [e3, e5, e7, addf_apply, mulf_apply]
  rw [bcast_row, bcast_row, rot_apply]

/-- What the first store writes: the loaded lanes themselves. -/
theorem pay1_eq (v : Vec Ideal S32x128x128 .f32) : k0_pay1 (F := Ideal) v = v := by
  unfold k0_pay1
  exact shapeCast_self _ _

end Cert.KernelIdeal.QPayload

end
-- ==== Proof.QCall.lean ====
/-
  The q call: what its result array holds when the call returns.

  The grid has 64 points; point `t` works on sequence positions 32 t .. 32 t + 31. Its body writes its output block
  with two stores: lanes 0..127 (the loaded lanes of q's block, unchanged) and lanes 128..191 (the rotary embedding
  of lanes 128..191 with the block's cos and sin rows). Read back together the two stores are `qArr` of the point's
  three input blocks; an input block at (a, h, d) is its array at (32 t + a, h, d); so the block written back at `t`
  is the block of `qArr` of the three arrays, and the 64 blocks tile the result array.
-/
import proofs.«138987_j61521111548175_2_alg».proof.Proof.Spec
import proofs.«138987_j61521111548175_2_alg».proof.Proof.QPayload
import proofs.«138987_j61521111548175_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.QCall

open Cert.KernelIdeal Cert.KernelIdeal.Gen Cert.RopeSpec Cert.KernelIdeal.QPayload
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl

/-! ## The two stores of one point are one block function of the point's input blocks -/

/-- The store of lanes 128..191, at an index of its rectangle. -/
theorem hi_piece (x0 : Vec Ideal S32x128x192 .f32) (x1 x2 : Vec Ideal S32x1x64 .f32)
    (x : (⟨3, ![32, 128, 64]⟩ : Shape).Idx) :
    k0_pay2 (F := Ideal)
        (View.ld x0 (Rect.unit (s := S32x128x192) ![0, 0, 128] ![32, 128, 64] inb_S32x128x192_S32x128x64_0_0_128)) x1 x2 x
      = qArr (n := 32) x0 x1 x2
          ((Rect.unit (s := S32x128x192) ![0, 0, 128] ![32, 128, 64] inb_S32x128x192_S32x128x64_0_0_128).emb x) := by
  obtain ⟨a, h, e, rfl⟩ : ∃ (a : Fin 32) (h : Fin 128) (e : Fin 64), x = ix3 a h e := ⟨x 0, x 1, x 2, eq_ix3 x⟩
  have hemb : ∀ e' : Fin 64,
      (Rect.unit (s := S32x128x192) ![0, 0, 128] ![32, 128, 64] inb_S32x128x192_S32x128x64_0_0_128).emb (ix3 a h e')
        = ix3 a h (⟨128 + e'.val, by omega⟩ : Fin 192) := fun e' => by
    funext b; apply Fin.ext
    match b with
    | ⟨0, _⟩ => show 0 + 1 * a.val = a.val; omega
    | ⟨1, _⟩ => show 0 + 1 * h.val = h.val; omega
    | ⟨2, _⟩ => show 128 + 1 * e'.val = 128 + e'.val; omega
  rw [pay2_apply, hemb e, qArr_ix3]
  unfold qRow
  rw [dif_neg (show ¬ (128 + e.val < 128) by omega)]
  have hf : (fun e' : Fin 64 => View.ld x0 (Rect.unit (s := S32x128x192) ![0, 0, 128] ![32, 128, 64]
        inb_S32x128x192_S32x128x64_0_0_128) (ix3 a h e'))
      = fun e' : Fin 64 => x0 (ix3 a h (⟨128 + e'.val, by omega⟩ : Fin 192)) :=
    funext fun e' => congrArg x0 (hemb e')
  have he : (⟨128 + e.val - 128, by omega⟩ : Fin 64) = e := Fin.ext (by show 128 + e.val - 128 = e.val; omega)
  rw [hf, he]

/-- The store of lanes 0..127, at an index of its rectangle. -/
theorem lo_piece (x0 : Vec Ideal S32x128x192 .f32) (x1 x2 : Vec Ideal S32x1x64 .f32)
    (x : (⟨3, ![32, 128, 128]⟩ : Shape).Idx) :
    k0_pay1 (F := Ideal)
        (View.ld x0 (Rect.unit (s := S32x128x192) ![0, 0, 0] ![32, 128, 128] inb_S32x128x192_S32x128x128_0_0_0)) x
      = qArr (n := 32) x0 x1 x2
          ((Rect.unit (s := S32x128x192) ![0, 0, 0] ![32, 128, 128] inb_S32x128x192_S32x128x128_0_0_0).emb x) := by
  obtain ⟨a, h, d, rfl⟩ : ∃ (a : Fin 32) (h : Fin 128) (d : Fin 128), x = ix3 a h d := ⟨x 0, x 1, x 2, eq_ix3 x⟩
  have hemb : (Rect.unit (s := S32x128x192) ![0, 0, 0] ![32, 128, 128] inb_S32x128x192_S32x128x128_0_0_0).emb (ix3 a h d)
        = ix3 a h (⟨d.val, by omega⟩ : Fin 192) := by
    funext b; apply Fin.ext
    match b with
    | ⟨0, _⟩ => show 0 + 1 * a.val = a.val; omega
    | ⟨1, _⟩ => show 0 + 1 * h.val = h.val; omega
    | ⟨2, _⟩ => show 0 + 1 * d.val = d.val; omega
  rw [pay1_eq, hemb, qArr_ix3]
  unfold qRow
  rw [dif_pos (show d.val < 128 from d.isLt)]
  exact congrArg x0 hemb

/-- What one point leaves in the output's staging buffer: `qArr` of its three input blocks. -/
theorem out_eq (c : Dev nD) (i : grid0.Coords) (a1 : Memref sig .tc .vmem S32x128x192 .f32) (h1 : a1.IsWhole)
    (a2 : Memref sig .tc .vmem S32x1x64 .f32) (h2 : a2.IsWhole) (a3 : Memref sig .tc .vmem S32x1x64 .f32) (h3 : a3.IsWhole)
    (a4 : Memref sig .tc .vmem S32x128x192 .f32) (h4 : a4.IsWhole)
    (x0 : Vec Ideal S32x128x192 .f32) (x1 x2 : Vec Ideal S32x1x64 .f32) :
    out0_A_3 (F := Ideal) c i a1 h1 a2 h2 a3 h3 a4 h4 x0 x1 x2 = qArr (n := 32) x0 x1 x2 := by
  unfold out0_A_3
  rw [View.read_writes_eq_canon _ _ _ (cover0_A_3 c i a1 h1 a2 h2 a3 h3 a4 h4 x0 x1 x2)]
  funext y
  refine View.canon_apply_of_pieces (qArr (n := 32) x0 x1 x2) _ ?_ y (cover0_A_3 c i a1 h1 a2 h2 a3 h3 a4 h4 x0 x1 x2 y)
  unfold kernelRun0_A
  dsimp only
  sl_unfold_words
  intro p hp x
  simp only [List.mem_cons, List.not_mem_nil, or_false] at hp
  rcases hp with rfl | rfl
  · simp only [View.readAt_eq_ld, h1.read_unread, h2.read_unread, h3.read_unread, View.ld_unit_zero (S := S32x1x64) hz3]
    exact hi_piece x0 x1 x2 x
  · simp only [View.readAt_eq_ld, h1.read_unread]
    exact lo_piece x0 x1 x2 x

/-! ## A block of `qArr` of the arrays is `qArr` of the blocks -/

/-- If three 32-position blocks are the rows `r a` of three 2048-position arrays, then `qArr` of the blocks at
    (a, h, d) is `qArr` of the arrays at (r a, h, d): a row of the result depends only on the same row of q and
    the same position's cos and sin rows. -/
theorem qArr_block (Q : FVec Ideal ⟨3, ![2048, 128, 192]⟩ .f32) (C S : FVec Ideal ⟨3, ![2048, 1, 64]⟩ .f32)
    (x0 : FVec Ideal ⟨3, ![32, 128, 192]⟩ .f32) (x1 x2 : FVec Ideal ⟨3, ![32, 1, 64]⟩ .f32) (r : Fin 32 → Fin 2048)
    (h0 : ∀ (a : Fin 32) (h : Fin 128) (d : Fin 192), x0 (ix3 a h d) = Q (ix3 (r a) h d))
    (h1 : ∀ (a : Fin 32) (e : Fin 64), x1 (ix3 a (0 : Fin 1) e) = C (ix3 (r a) (0 : Fin 1) e))
    (h2 : ∀ (a : Fin 32) (e : Fin 64), x2 (ix3 a (0 : Fin 1) e) = S (ix3 (r a) (0 : Fin 1) e))
    (a : Fin 32) (h : Fin 128) (d : Fin 192) :
    qArr x0 x1 x2 (ix3 a h d) = qArr Q C S (ix3 (r a) h d) := by
  rw [qArr_ix3, qArr_ix3]
  simp only [h0, h1, h2]

section Arrays

variable (V : (c : Dev nD) → (b : Ref sig .tc) → Buf (Elt Ideal) ((c : Thread nD τ).loc b))

/-- The four index maps over the grid: every window's block at point `t` is block `t` along the position axis and
    block 0 along the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Position `32 t + a` is one of the 2048. -/
theorem pos_lt (t : Fin cfg0.N) (a : Fin 32) : 32 * t.val + a.val < 2048 := by
  have hN : cfg0.N = 64 := N_0
  have h1 := t.isLt
  have h2 := a.isLt
  omega

/-- The position a point's block row stands for. -/
def pos (t : Fin cfg0.N) (a : Fin 32) : Fin 2048 := ⟨32 * t.val + a.val, pos_lt t a⟩

/-- q's block at point `t`. -/
theorem blk_q (c : Dev nD) (t : Fin cfg0.N) (a : Fin 32) (h : Fin 128) (d : Fin 192) :
    (iblk0 V c 0 t : Vec Ideal S32x128x192 .f32) (ix3 a h d) = V c main_v17 (ix3 (pos t a) h d) := by
  unfold iblk0
  rw [View.read_apply]
  show V c main_v17 _ = V c main_v17 _
  refine congrArg (V c main_v17) (funext fun b => Fin.ext ?_)
  obtain ⟨e0, e1, e2, -⟩ := idx_facts t
  match b with
  | ⟨0, _⟩ => show win0_0.index t (0 : Fin 3) * 32 + 1 * a.val = 32 * t.val + a.val; rw [e0]; omega
  | ⟨1, _⟩ => show win0_0.index t (1 : Fin 3) * 128 + 1 * h.val = h.val; rw [e1]; omega
  | ⟨2, _⟩ => show win0_0.index t (2 : Fin 3) * 192 + 1 * d.val = d.val; rw [e2]; omega

/-- The cos rows' block at point `t`. -/
theorem blk_cos (c : Dev nD) (t : Fin cfg0.N) (a : Fin 32) (e : Fin 64) :
    (iblk0 V c 1 t : Vec Ideal S32x1x64 .f32) (ix3 a (0 : Fin 1) e) = V c main_v8 (ix3 (pos t a) (0 : Fin 1) e) := by
  unfold iblk0
  rw [View.read_apply]
  show V c main_v8 _ = V c main_v8 _
  refine congrArg (V c main_v8) (funext fun b => Fin.ext ?_)
  obtain ⟨-, -, -, e0, e1, e2, -⟩ := idx_facts t
  match b with
  | ⟨0, _⟩ => show win0_1.index t (0 : Fin 3) * 32 + 1 * a.val = 32 * t.val + a.val; rw [e0]; omega
  | ⟨1, _⟩ => show win0_1.index t (1 : Fin 3) * 1 + 1 * 0 = 0; rw [e1]
  | ⟨2, _⟩ => show win0_1.index t (2 : Fin 3) * 64 + 1 * e.val = e.val; rw [e2]; omega

/-- The sin rows' block at point `t`. -/
theorem blk_sin (c : Dev nD) (t : Fin cfg0.N) (a : Fin 32) (e : Fin 64) :
    (iblk0 V c 2 t : Vec Ideal S32x1x64 .f32) (ix3 a (0 : Fin 1) e) = V c main_v16 (ix3 (pos t a) (0 : Fin 1) e) := by
  unfold iblk0
  rw [View.read_apply]
  show V c main_v16 _ = V c main_v16 _
  refine congrArg (V c main_v16) (funext fun b => Fin.ext ?_)
  obtain ⟨-, -, -, -, -, -, e0, e1, e2, -⟩ := idx_facts t
  match b with
  | ⟨0, _⟩ => show win0_2.index t (0 : Fin 3) * 32 + 1 * a.val = 32 * t.val + a.val; rw [e0]; omega
  | ⟨1, _⟩ => show win0_2.index t (1 : Fin 3) * 1 + 1 * 0 = 0; rw [e1]
  | ⟨2, _⟩ => show win0_2.index t (2 : Fin 3) * 64 + 1 * e.val = e.val; rw [e2]; omega

/-- `qArr` of point `t`'s input blocks, at an index of the output block, is `qArr` of the three arrays at the
    index that block element has in the result array. -/
theorem block_pt (c : Dev nD) (t : Fin cfg0.N) (j : (⟨3, ![32, 128, 192]⟩ : Shape).Idx) :
    qArr (n := 32) (iblk0 V c 0 t) (iblk0 V c 1 t) (iblk0 V c 2 t) j
      = qArr (n := 2048) (V c main_v17) (V c main_v8) (V c main_v16) (((cfg0.win 3).blk t).view.emb j) := by
  obtain ⟨a, h, d, rfl⟩ : ∃ (a : Fin 32) (h : Fin 128) (d : Fin 192), j = ix3 a h d := ⟨j 0, j 1, j 2, eq_ix3 j⟩
  have hemb : ((cfg0.win 3).blk t).view.emb (ix3 a h d) = ix3 (pos t a) h d := by
    funext b; apply Fin.ext
    obtain ⟨-, -, -, -, -, -, -, -, -, e0, e1, e2⟩ := idx_facts t
    match b with
    | ⟨0, _⟩ => show win0_3.index t (0 : Fin 3) * 32 + 1 * a.val = 32 * t.val + a.val; rw [e0]; omega
    | ⟨1, _⟩ => show win0_3.index t (1 : Fin 3) * 128 + 1 * h.val = h.val; rw [e1]; omega
    | ⟨2, _⟩ => show win0_3.index t (2 : Fin 3) * 192 + 1 * d.val = d.val; rw [e2]; omega
  rw [hemb]
  exact qArr_block (V c main_v17) (V c main_v8) (V c main_v16) (iblk0 V c 0 t) (iblk0 V c 1 t) (iblk0 V c 2 t)
    (pos t) (blk_q V c t) (blk_cos V c t) (blk_sin V c t) a h d

/-- What point `t` writes back is block `t` of `qArr` of the three arrays as the call finds them. -/
theorem flushed_eq (c : Dev nD) (t : Fin cfg0.N) :
    (dat0 V c).flushed 3 t
      = ((cfg0.win 3).blk t).view.read (Elt Ideal) (qArr (n := 2048) (V c main_v17) (V c main_v8) (V c main_v16)) := by
  show (cfg0.win 3).cut (grid0.coords t) ((dat0 V c).after 3 t) = _
  rw [after0_3]
  unfold outsAt0
  rw [out_eq]
  funext j
  show qArr (n := 32) (iblk0 V c 0 t) (iblk0 V c 1 t) (iblk0 V c 2 t) j
      = qArr (n := 2048) (V c main_v17) (V c main_v8) (V c main_v16) (((cfg0.win 3).blk t).view.emb j)
  exact block_pt V c t j

/-- An index of the result array is in point `t`'s block iff each coordinate is in the block's range. -/
theorem mem_blk (t : Fin cfg0.N) (i : S2048x128x192.Idx) :
    i ∈ ((cfg0.win 3).blk t).view.set ↔ ∀ a : Fin 3, win0_3.index t a * S32x128x192.size a ≤ (i a).val
      ∧ (i a).val < win0_3.index t a * S32x128x192.size a + S32x128x192.size a := by
  show i ∈ ((View.whole main_v20).slice (win0_3.rect t)).set ↔ _
  rw [View.set_slice_whole, Rect.mem_set_unit]
  exact Iff.rfl

/-- Every index of the result array is in the block of the point that owns its position: point `position / 32`. -/
theorem cover (i : S2048x128x192.Idx) :
    ∃ t : Fin cfg0.N, (cfg0.win 3).flush t = true ∧ i ∈ ((cfg0.win 3).blk t).view.set := by
  have hN : cfg0.N = 64 := N_0
  have h0 : (i 0).val < 2048 := (i 0).isLt
  have h1 : (i 1).val < 128 := (i 1).isLt
  have h2 : (i 2).val < 192 := (i 2).isLt
  have ht : (i 0).val / 32 < cfg0.N := by rw [hN]; omega
  refine ⟨⟨(i 0).val / 32, ht⟩, flush0_3 _, ?_⟩
  rw [mem_blk]
  obtain ⟨-, -, -, -, -, -, -, -, -, e0, e1, e2⟩ := idx_facts ⟨(i 0).val / 32, ht⟩
  intro a
  match a with
  | ⟨0, _⟩ =>
    show win0_3.index ⟨(i 0).val / 32, ht⟩ (0 : Fin 3) * 32 ≤ (i 0).val
      ∧ (i 0).val < win0_3.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_3.index ⟨(i 0).val / 32, ht⟩ (1 : Fin 3) * 128 ≤ (i 1).val
      ∧ (i 1).val < win0_3.index ⟨(i 0).val / 32, ht⟩ (1 : Fin 3) * 128 + 128
    rw [e1]; omega
  | ⟨2, _⟩ =>
    show win0_3.index ⟨(i 0).val / 32, ht⟩ (2 : Fin 3) * 192 ≤ (i 2).val
      ∧ (i 2).val < win0_3.index ⟨(i 0).val / 32, ht⟩ (2 : Fin 3) * 192 + 192
    rw [e2]; omega

/-- When the call returns, its result array is `qArr` of the three operand arrays as the call found them. -/
theorem final (c : Dev nD) :
    (dat0 V c).arrAt 3 cfg0.N = qArr (n := 2048) (V c main_v17) (V c main_v8) (V c main_v16) :=
  (dat0 V c).arrAt_eq_of_cover 3 _ (fun t _ => flushed_eq V c t) cover

end Arrays

end Cert.KernelIdeal.QCall

end
-- ==== Proof.KVPayload.lean ====
/-
  The kv kernel's arithmetic, read at an index.

  One grid point stores four values into its [32, 2, 128, 192] output block, each through a view of the block with a
  unit slot axis ([32, 1, 128, k]):
    slot 0, lanes 0..127    the first 128 lanes of kv's block;
    slot 0, lanes 128..191  the rotary embedding of k_pe's rows, the same for every head;
    slot 1, lanes 0..127    the last 128 lanes of kv's block;
    slot 1, lanes 128..191  zeros.
  A [32, 128, k] vector seen as [32, 1, 128, k] has entry (a, 0, h, d) at (a, h, d): the two have the same position
  in row-major order.
-/
import proofs.«138987_j61521111548175_2_alg».proof.Proof.Spec
import proofs.«138987_j61521111548175_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KVPayload

open Cert.KernelIdeal Cert.KernelIdeal.Gen Cert.RopeSpec
open Idealize.ShloMosaic Idealize.ShloMosaic.ValueIdx

/-- The zero word is the real number zero. -/
theorem zero_word : (Scalar.ofBits (F := Ideal) .f32 0x00000000#32 : EReal) = 0 := Ideal.ofBits_zero_f32

/-- A [32, 128, 128] vector seen with a unit slot axis. -/
theorem cast128 (v : FVec Ideal S32x128x128 .f32) (a : Fin 32) (h : Fin 128) (d : Fin 128) :
    shapeCast S32x1x128x128 v shapeCasts_S32x128x128_S32x1x128x128 (ix4 a (0 : Fin 1) h d) = v (ix3 a h d) :=
  shapeCast_apply v _ (ix4 a (0 : Fin 1) h d) (ix3 a h d) (by
    rw [Shape.rowMajor_val_three, Shape.rowMajor_val_four]
    show (a.val * 128 + h.val) * 128 + d.val = ((a.val * 1 + 0) * 128 + h.val) * 128 + d.val
    omega)

/-- A [32, 128, 64] vector seen with a unit slot axis. -/
theorem cast64 (v : FVec Ideal S32x128x64 .f32) (a : Fin 32) (h : Fin 128) (e : Fin 64) :
    shapeCast S32x1x128x64 v shapeCasts_S32x128x64_S32x1x128x64 (ix4 a (0 : Fin 1) h e) = v (ix3 a h e) :=
  shapeCast_apply v _ (ix4 a (0 : Fin 1) h e) (ix3 a h e) (by
    rw [Shape.rowMajor_val_three, Shape.rowMajor_val_four]
    show (a.val * 128 + h.val) * 64 + e.val = ((a.val * 1 + 0) * 128 + h.val) * 64 + e.val
    omega)

/-- Slot 0, lanes 0..127: the loaded lanes. -/
theorem pay5_apply (v : Vec Ideal S32x128x128 .f32) (a : Fin 32) (h : Fin 128) (d : Fin 128) :
    k1_pay5 (F := Ideal) v (ix4 a (0 : Fin 1) h d) = v (ix3 a h d) := by
  have e1 : shapeCast S32x128x128 v shapeCasts_S32x128x128_S32x128x128 = v := shapeCast_self _ _
  unfold k1_pay5
  simp only [e1]
  exact cast128 v a h d

/-- Slot 1, lanes 0..127: the loaded lanes. -/
theorem pay1_apply (v : Vec Ideal S32x128x128 .f32) (a : Fin 32) (h : Fin 128) (d : Fin 128) :
    k1_pay1 (F := Ideal) (k1_pay3 (F := Ideal) v) (ix4 a (0 : Fin 1) h d) = v (ix3 a h d) := by
  have e1 : shapeCast S32x128x128 v shapeCasts_S32x128x128_S32x128x128 = v := shapeCast_self _ _
  unfold k1_pay1 k1_pay3
  simp only [e1]
  exact cast128 v a h d

/-- Slot 1, lanes 128..191: zeros. -/
theorem pay2_apply (a : Fin 32) (h : Fin 128) (e : Fin 64) :
    k1_pay2 (F := Ideal) (k1_pay4 (F := Ideal)) (ix4 a (0 : Fin 1) h e) = 0 := by
  unfold k1_pay2 k1_pay4
  refine (cast64 _ a h e).trans ?_
  exact zero_word

/-- A [32, 1, 64] row vector broadcast over the heads reads its row. -/
theorem bcast_row (x : FVec Ideal S32x1x64 .f32) (a : Fin 32) (h : Fin 128) (e : Fin 64) :
    broadcastTo S32x128x64 x broadcasts_S32x1x64_S32x128x64 (ix3 a h e) = x (ix3 a (0 : Fin 1) e) :=
  broadcastTo_apply x broadcasts_S32x1x64_S32x128x64 (ix3 a h e) (ix3 a (0 : Fin 1) e) (fun b => match b with
    | ⟨0, _⟩ => by show a.val = if (32 : Nat) = 1 then 0 else a.val; rw [if_neg (by decide)]
    | ⟨1, _⟩ => by show 0 = if (1 : Nat) = 1 then 0 else h.val; rw [if_pos rfl]
    | ⟨2, _⟩ => by show e.val = if (64 : Nat) = 1 then 0 else e.val; rw [if_neg (by decide)])

/-- The upper half of a row's lanes. -/
theorem slice_hi (v : FVec Ideal S32x1x64 .f32) (a : Fin 32) (e : Fin 32) :
    extractStridedSlice S32x1x32 ![0, 0, 32] v slices_S32x1x64_o0_0_32_S32x1x32 (ix3 a (0 : Fin 1) e)
      = v (ix3 a (0 : Fin 1) ⟨e.val + 32, by omega⟩) :=
  extractStridedSlice_apply _ v _ (ix3 a (0 : Fin 1) e) (ix3 a (0 : Fin 1) ⟨e.val + 32, by omega⟩) (fun b => match b with
    | ⟨0, _⟩ => by show a.val = 0 + a.val; omega
    | ⟨1, _⟩ => by show 0 = 0 + 0; omega
    | ⟨2, _⟩ => by show e.val + 32 = 32 + e.val; omega)

/-- The lower half of a row's lanes. -/
theorem slice_lo (v : FVec Ideal S32x1x64 .f32) (a : Fin 32) (e : Fin 32) :
    extractStridedSlice S32x1x32 ![0, 0, 0] v slices_S32x1x64_o0_0_0_S32x1x32 (ix3 a (0 : Fin 1) e)
      = v (ix3 a (0 : Fin 1) ⟨e.val, by omega⟩) :=
  extractStridedSlice_apply _ v _ (ix3 a (0 : Fin 1) e) (ix3 a (0 : Fin 1) ⟨e.val, by omega⟩) (fun b => match b with
    | ⟨0, _⟩ => by show a.val = 0 + a.val; omega
    | ⟨1, _⟩ => by show 0 = 0 + 0; omega
    | ⟨2, _⟩ => by show e.val = 0 + e.val; omega)

/-- The joined vector `[0 - v[.., 32:], v[.., :32]]` is "rotate half" of each row. -/
theorem rot_apply (v : FVec Ideal S32x1x64 .f32) (a : Fin 32) (e : Fin 64) :
    concatenate S32x1x64 2
        [⟨S32x1x32, subf (broadcast S32x1x32 (Scalar.ofBits (F := Ideal) .f32 0x00000000#32))
            (extractStridedSlice S32x1x32 ![0, 0, 32] v slices_S32x1x64_o0_0_32_S32x1x32)⟩,
          ⟨S32x1x32, extractStridedSlice S32x1x32 ![0, 0, 0] v slices_S32x1x64_o0_0_0_S32x1x32⟩]
        concatenates_S32x1x32_S32x1x32_S32x1x64_d2 (ix3 a (0 : Fin 1) e)
      = rot (fun e' => v (ix3 a (0 : Fin 1) e')) e := by
  unfold rot
  by_cases hlt : e.val < 32
  · rw [dif_pos hlt]
    refine (concatenate_pair_apply_left (s₁ := S32x1x32) (s₂ := S32x1x32) (2 : Fin 3) _ _ concatenates_S32x1x32_S32x1x32_S32x1x64_d2
      (ix3 a (0 : Fin 1) e) rfl (ix3 a (0 : Fin 1) (⟨e.val, hlt⟩ : Fin 32)) (fun b => match b with
        | ⟨0, _⟩ => rfl
        | ⟨1, _⟩ => rfl
        | ⟨2, _⟩ => rfl)).trans ?_
    show (Scalar.ofBits (F := Ideal) .f32 0x00000000#32 : EReal) - _ = _
    rw [zero_word, zero_sub_eq_neg, slice_hi]
  · rw [dif_neg hlt]
    refine (concatenate_pair_apply_right (s₁ := S32x1x32) (s₂ := S32x1x32) (2 : Fin 3) _ _ concatenates_S32x1x32_S32x1x32_S32x1x64_d2
      (ix3 a (0 : Fin 1) e) rfl rfl (ix3 a (0 : Fin 1) (⟨e.val - 32, by omega⟩ : Fin 32)) (fun b hb => match b, hb with
        | ⟨0, _⟩, _ => rfl
        | ⟨1, _⟩, _ => rfl
        | ⟨2, _⟩, hb => absurd rfl hb) (by show (e.val - 32) + 32 = e.val; omega)).trans ?_
    rw [slice_lo]

/-- Slot 0, lanes 128..191: the rotary embedding of k_pe's row, whatever the head. -/
theorem pay6_apply (pe c s : Vec Ideal S32x1x64 .f32) (a : Fin 32) (h : Fin 128) (e : Fin 64) :
    k1_pay6 (F := Ideal) pe c s (ix4 a (0 : Fin 1) h e)
      = rope (fun e' => pe (ix3 a (0 : Fin 1) e')) (fun e' => c (ix3 a (0 : Fin 1) e'))
          (fun e' => s (ix3 a (0 : Fin 1) e')) e := by
  have e5 : shapeCast S32x1x64 pe shapeCasts_S32x1x64_S32x1x64 = pe := shapeCast_self _ _
  have e7 : shapeCast S32x1x64 c shapeCasts_S32x1x64_S32x1x64 = c := shapeCast_self _ _
  have e9 : shapeCast S32x1x64 s shapeCasts_S32x1x64_S32x1x64 = s := shapeCast_self _ _
  unfold k1_pay6 rope
  simp only [e5, e7, e9, shapeCast_self]
  refine (cast64 _ a h e).trans ?_
  refine (bcast_row _ a h e).trans ?_
  simp only [addf_apply, mulf_apply]
  rw [rot_apply]
  simp only [e5]

end Cert.KernelIdeal.KVPayload

end
-- ==== Proof.KVCall.lean ====
/-
  The kv call: what its result array holds when the call returns.

  The grid has 64 points; point `t` works on sequence positions 32 t .. 32 t + 31 and writes a [32, 2, 128, 192]
  block with four stores (slot 0 and slot 1, lanes 0..127 and lanes 128..191 of each). Read back together they are
  `kvArr` of the point's four input blocks (kv, k_pe, cos rows, sin rows); an input block at row `a` is its array at
  position 32 t + a; so the block written back at `t` is the block of `kvArr` of the four arrays, and the 64 blocks
  tile the result array.
-/
import proofs.«138987_j61521111548175_2_alg».proof.Proof.Spec
import proofs.«138987_j61521111548175_2_alg».proof.Proof.KVPayload
import proofs.«138987_j61521111548175_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KVCall

open Cert.KernelIdeal Cert.KernelIdeal.Gen Cert.RopeSpec Cert.KernelIdeal.KVPayload
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl

/-! ## The four stores of one point are one block function of the point's input blocks -/

/-- Slot 1, lanes 128..191. -/
theorem s1hi_piece (x0 : Vec Ideal S32x128x256 .f32) (x1 x2 x3 : Vec Ideal S32x1x64 .f32)
    (x : (⟨4, ![32, 1, 128, 64]⟩ : Shape).Idx) :
    k1_pay2 (F := Ideal) (k1_pay4 (F := Ideal)) x = kvArr (n := 32) x0 x1 x2 x3 ((Rect.unit (s := S32x2x128x192) ![0, 1, 0, 128] ![32, 1, 128, 64] inb_S32x2x128x192_S32x1x128x64_0_1_0_128).emb x) := by
  obtain ⟨a, z, h, e, rfl⟩ : ∃ (a : Fin 32) (z : Fin 1) (h : Fin 128) (e : Fin 64), x = ix4 a z h e :=
    ⟨x 0, x 1, x 2, x 3, eq_ix4 x⟩
  obtain rfl : z = 0 := Subsingleton.elim _ _
  have hemb : (Rect.unit (s := S32x2x128x192) ![0, 1, 0, 128] ![32, 1, 128, 64] inb_S32x2x128x192_S32x1x128x64_0_1_0_128).emb (ix4 a (0 : Fin 1) h e) = ix4 a (1 : Fin 2) h (⟨128 + e.val, by omega⟩ : Fin 192) := by
    funext b; apply Fin.ext
    match b with
    | ⟨0, _⟩ => show 0 + 1 * a.val = a.val; omega
    | ⟨1, _⟩ => show 1 + 1 * 0 = 1; omega
    | ⟨2, _⟩ => show 0 + 1 * h.val = h.val; omega
    | ⟨3, _⟩ => show 128 + 1 * e.val = 128 + e.val; omega
  rw [pay2_apply, hemb, kvArr_ix4]
  unfold kvRow
  rw [if_neg (show ¬ ((1 : Fin 2).val = 0) by decide), dif_neg (show ¬ (128 + e.val < 128) by omega)]

/-- Slot 1, lanes 0..127. -/
theorem s1lo_piece (x0 : Vec Ideal S32x128x256 .f32) (x1 x2 x3 : Vec Ideal S32x1x64 .f32)
    (x : (⟨4, ![32, 1, 128, 128]⟩ : Shape).Idx) :
    k1_pay1 (F := Ideal) (k1_pay3 (F := Ideal) (View.ld x0 (Rect.unit (s := S32x128x256) ![0, 0, 128] ![32, 128, 128] inb_S32x128x256_S32x128x128_0_0_128))) x
      = kvArr (n := 32) x0 x1 x2 x3 ((Rect.unit (s := S32x2x128x192) ![0, 1, 0, 0] ![32, 1, 128, 128] inb_S32x2x128x192_S32x1x128x128_0_1_0_0).emb x) := by
  obtain ⟨a, z, h, d, rfl⟩ : ∃ (a : Fin 32) (z : Fin 1) (h : Fin 128) (d : Fin 128), x = ix4 a z h d :=
    ⟨x 0, x 1, x 2, x 3, eq_ix4 x⟩
  obtain rfl : z = 0 := Subsingleton.elim _ _
  have hemb : (Rect.unit (s := S32x2x128x192) ![0, 1, 0, 0] ![32, 1, 128, 128] inb_S32x2x128x192_S32x1x128x128_0_1_0_0).emb (ix4 a (0 : Fin 1) h d) = ix4 a (1 : Fin 2) h (⟨d.val, by omega⟩ : Fin 192) := by
    funext b; apply Fin.ext
    match b with
    | ⟨0, _⟩ => show 0 + 1 * a.val = a.val; omega
    | ⟨1, _⟩ => show 1 + 1 * 0 = 1; omega
    | ⟨2, _⟩ => show 0 + 1 * h.val = h.val; omega
    | ⟨3, _⟩ => show 0 + 1 * d.val = d.val; omega
  have hld : (Rect.unit (s := S32x128x256) ![0, 0, 128] ![32, 128, 128] inb_S32x128x256_S32x128x128_0_0_128).emb (ix3 a h d) = ix3 a h (⟨128 + d.val, by omega⟩ : Fin 256) := by
    funext b; apply Fin.ext
    match b with
    | ⟨0, _⟩ => show 0 + 1 * a.val = a.val; omega
    | ⟨1, _⟩ => show 0 + 1 * h.val = h.val; omega
    | ⟨2, _⟩ => show 128 + 1 * d.val = 128 + d.val; omega
  rw [pay1_apply, hemb, kvArr_ix4]
  unfold kvRow
  rw [if_neg (show ¬ ((1 : Fin 2).val = 0) by decide), dif_pos (show d.val < 128 from d.isLt)]
  exact congrArg x0 hld

/-- Slot 0, lanes 128..191. -/
theorem s0hi_piece (x0 : Vec Ideal S32x128x256 .f32) (x1 x2 x3 : Vec Ideal S32x1x64 .f32)
    (x : (⟨4, ![32, 1, 128, 64]⟩ : Shape).Idx) :
    k1_pay6 (F := Ideal) x1 x2 x3 x = kvArr (n := 32) x0 x1 x2 x3 ((Rect.unit (s := S32x2x128x192) ![0, 0, 0, 128] ![32, 1, 128, 64] inb_S32x2x128x192_S32x1x128x64_0_0_0_128).emb x) := by
  obtain ⟨a, z, h, e, rfl⟩ : ∃ (a : Fin 32) (z : Fin 1) (h : Fin 128) (e : Fin 64), x = ix4 a z h e :=
    ⟨x 0, x 1, x 2, x 3, eq_ix4 x⟩
  obtain rfl : z = 0 := Subsingleton.elim _ _
  have hemb : (Rect.unit (s := S32x2x128x192) ![0, 0, 0, 128] ![32, 1, 128, 64] inb_S32x2x128x192_S32x1x128x64_0_0_0_128).emb (ix4 a (0 : Fin 1) h e) = ix4 a (0 : Fin 2) h (⟨128 + e.val, by omega⟩ : Fin 192) := by
    funext b; apply Fin.ext
    match b with
    | ⟨0, _⟩ => show 0 + 1 * a.val = a.val; omega
    | ⟨1, _⟩ => show 0 + 1 * 0 = 0; omega
    | ⟨2, _⟩ => show 0 + 1 * h.val = h.val; omega
    | ⟨3, _⟩ => show 128 + 1 * e.val = 128 + e.val; omega
  rw [pay6_apply, hemb, kvArr_ix4]
  unfold kvRow
  rw [if_pos (show (0 : Fin 2).val = 0 from rfl), dif_neg (show ¬ (128 + e.val < 128) by omega)]
  have he : (⟨128 + e.val - 128, by omega⟩ : Fin 64) = e := Fin.ext (by show 128 + e.val - 128 = e.val; omega)
  rw [he]

/-- Slot 0, lanes 0..127. -/
theorem s0lo_piece (x0 : Vec Ideal S32x128x256 .f32) (x1 x2 x3 : Vec Ideal S32x1x64 .f32)
    (x : (⟨4, ![32, 1, 128, 128]⟩ : Shape).Idx) :
    k1_pay5 (F := Ideal) (View.ld x0 (Rect.unit (s := S32x128x256) ![0, 0, 0] ![32, 128, 128] inb_S32x128x256_S32x128x128_0_0_0)) x = kvArr (n := 32) x0 x1 x2 x3 ((Rect.unit (s := S32x2x128x192) ![0, 0, 0, 0] ![32, 1, 128, 128] inb_S32x2x128x192_S32x1x128x128_0_0_0_0).emb x) := by
  obtain ⟨a, z, h, d, rfl⟩ : ∃ (a : Fin 32) (z : Fin 1) (h : Fin 128) (d : Fin 128), x = ix4 a z h d :=
    ⟨x 0, x 1, x 2, x 3, eq_ix4 x⟩
  obtain rfl : z = 0 := Subsingleton.elim _ _
  have hemb : (Rect.unit (s := S32x2x128x192) ![0, 0, 0, 0] ![32, 1, 128, 128] inb_S32x2x128x192_S32x1x128x128_0_0_0_0).emb (ix4 a (0 : Fin 1) h d) = ix4 a (0 : Fin 2) h (⟨d.val, by omega⟩ : Fin 192) := by
    funext b; apply Fin.ext
    match b with
    | ⟨0, _⟩ => show 0 + 1 * a.val = a.val; omega
    | ⟨1, _⟩ => show 0 + 1 * 0 = 0; omega
    | ⟨2, _⟩ => show 0 + 1 * h.val = h.val; omega
    | ⟨3, _⟩ => show 0 + 1 * d.val = d.val; omega
  have hld : (Rect.unit (s := S32x128x256) ![0, 0, 0] ![32, 128, 128] inb_S32x128x256_S32x128x128_0_0_0).emb (ix3 a h d) = ix3 a h (⟨d.val, by omega⟩ : Fin 256) := by
    funext b; apply Fin.ext
    match b with
    | ⟨0, _⟩ => show 0 + 1 * a.val = a.val; omega
    | ⟨1, _⟩ => show 0 + 1 * h.val = h.val; omega
    | ⟨2, _⟩ => show 0 + 1 * d.val = d.val; omega
  rw [pay5_apply, hemb, kvArr_ix4]
  unfold kvRow
  rw [if_pos (show (0 : Fin 2).val = 0 from rfl), dif_pos (show d.val < 128 from d.isLt)]
  exact congrArg x0 hld

/-- What one point leaves in the output's staging buffer: `kvArr` of its four input blocks. -/
theorem out_eq (c : Dev nD) (i : grid1.Coords) (a1 : Memref sig .tc .vmem S32x128x256 .f32) (h1 : a1.IsWhole)
    (a2 : Memref sig .tc .vmem S32x1x64 .f32) (h2 : a2.IsWhole) (a3 : Memref sig .tc .vmem S32x1x64 .f32) (h3 : a3.IsWhole)
    (a4 : Memref sig .tc .vmem S32x1x64 .f32) (h4 : a4.IsWhole)
    (a5 : Memref sig .tc .vmem S32x2x128x192 .f32) (h5 : a5.IsWhole)
    (x0 : Vec Ideal S32x128x256 .f32) (x1 x2 x3 : Vec Ideal S32x1x64 .f32) :
    out1_A_4 (F := Ideal) c i a1 h1 a2 h2 a3 h3 a4 h4 a5 h5 x0 x1 x2 x3 = kvArr (n := 32) x0 x1 x2 x3 := by
  unfold out1_A_4
  rw [View.read_writes_eq_canon _ _ _ (cover1_A_4 c i a1 h1 a2 h2 a3 h3 a4 h4 a5 h5 x0 x1 x2 x3)]
  funext y
  refine View.canon_apply_of_pieces (kvArr (n := 32) x0 x1 x2 x3) _ ?_ y
    (cover1_A_4 c i a1 h1 a2 h2 a3 h3 a4 h4 a5 h5 x0 x1 x2 x3 y)
  unfold kernelRun1_A
  dsimp only
  sl_unfold_words
  intro p hp x
  simp only [List.mem_cons, List.not_mem_nil, or_false] at hp
  rcases hp with rfl | rfl | rfl | rfl
  · exact s1hi_piece x0 x1 x2 x3 x
  · simp only [View.readAt_eq_ld, h1.read_unread]
    exact s1lo_piece x0 x1 x2 x3 x
  · simp only [View.readAt_eq_ld, h2.read_unread, h3.read_unread, h4.read_unread, View.ld_unit_zero (S := S32x1x64) hz3]
    exact s0hi_piece x0 x1 x2 x3 x
  · simp only [View.readAt_eq_ld, h1.read_unread]
    exact s0lo_piece x0 x1 x2 x3 x

/-! ## A block of `kvArr` of the arrays is `kvArr` of the blocks -/

/-- If four 32-position blocks are the rows `r a` of four 2048-position arrays, then `kvArr` of the blocks at
    (a, j, h, d) is `kvArr` of the arrays at (r a, j, h, d). -/
theorem kvArr_block (KV : FVec Ideal ⟨3, ![2048, 128, 256]⟩ .f32) (PE C S : FVec Ideal ⟨3, ![2048, 1, 64]⟩ .f32)
    (x0 : FVec Ideal ⟨3, ![32, 128, 256]⟩ .f32) (x1 x2 x3 : FVec Ideal ⟨3, ![32, 1, 64]⟩ .f32) (r : Fin 32 → Fin 2048)
    (h0 : ∀ (a : Fin 32) (h : Fin 128) (d : Fin 256), x0 (ix3 a h d) = KV (ix3 (r a) h d))
    (h1 : ∀ (a : Fin 32) (e : Fin 64), x1 (ix3 a (0 : Fin 1) e) = PE (ix3 (r a) (0 : Fin 1) e))
    (h2 : ∀ (a : Fin 32) (e : Fin 64), x2 (ix3 a (0 : Fin 1) e) = C (ix3 (r a) (0 : Fin 1) e))
    (h3 : ∀ (a : Fin 32) (e : Fin 64), x3 (ix3 a (0 : Fin 1) e) = S (ix3 (r a) (0 : Fin 1) e))
    (a : Fin 32) (j : Fin 2) (h : Fin 128) (d : Fin 192) :
    kvArr x0 x1 x2 x3 (ix4 a j h d) = kvArr KV PE C S (ix4 (r a) j h d) := by
  rw [kvArr_ix4, kvArr_ix4]
  simp only [h0, h1, h2, h3]

section Arrays

variable (V : (c : Dev nD) → (b : Ref sig .tc) → Buf (Elt Ideal) ((c : Thread nD τ).loc b))

/-- The five index maps over the grid: every window's block at point `t` is block `t` along the position axis and
    block 0 along the others. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 4) = t.val ∧ win1_4.index t (1 : Fin 4) = 0 ∧ win1_4.index t (2 : Fin 4) = 0
    ∧ win1_4.index t (3 : Fin 4) = 0 :=
  (by decide +kernel : ∀ t : Fin grid1.N, _)

/-- Position `32 t + a` is one of the 2048. -/
theorem pos_lt (t : Fin cfg1.N) (a : Fin 32) : 32 * t.val + a.val < 2048 := by
  have hN : cfg1.N = 64 := N_1
  have h1 := t.isLt
  have h2 := a.isLt
  omega

/-- The position a point's block row stands for. -/
def pos (t : Fin cfg1.N) (a : Fin 32) : Fin 2048 := ⟨32 * t.val + a.val, pos_lt t a⟩

/-- kv's block at point `t`. -/
theorem blk_kv (c : Dev nD) (t : Fin cfg1.N) (a : Fin 32) (h : Fin 128) (d : Fin 256) :
    (iblk1 V c 0 t : Vec Ideal S32x128x256 .f32) (ix3 a h d) = V c main_v18 (ix3 (pos t a) h d) := by
  unfold iblk1
  rw [View.read_apply]
  show V c main_v18 _ = V c main_v18 _
  refine congrArg (V c main_v18) (funext fun b => Fin.ext ?_)
  obtain ⟨e0, e1, e2, -⟩ := idx_facts t
  match b with
  | ⟨0, _⟩ => show win1_0.index t (0 : Fin 3) * 32 + 1 * a.val = 32 * t.val + a.val; rw [e0]; omega
  | ⟨1, _⟩ => show win1_0.index t (1 : Fin 3) * 128 + 1 * h.val = h.val; rw [e1]; omega
  | ⟨2, _⟩ => show win1_0.index t (2 : Fin 3) * 256 + 1 * d.val = d.val; rw [e2]; omega

/-- k_pe's block at point `t`. -/
theorem blk_pe (c : Dev nD) (t : Fin cfg1.N) (a : Fin 32) (e : Fin 64) :
    (iblk1 V c 1 t : Vec Ideal S32x1x64 .f32) (ix3 a (0 : Fin 1) e) = V c main_v19 (ix3 (pos t a) (0 : Fin 1) e) := by
  unfold iblk1
  rw [View.read_apply]
  show V c main_v19 _ = V c main_v19 _
  refine congrArg (V c main_v19) (funext fun b => Fin.ext ?_)
  obtain ⟨-, -, -, e0, e1, e2, -⟩ := idx_facts t
  match b with
  | ⟨0, _⟩ => show win1_1.index t (0 : Fin 3) * 32 + 1 * a.val = 32 * t.val + a.val; rw [e0]; omega
  | ⟨1, _⟩ => show win1_1.index t (1 : Fin 3) * 1 + 1 * 0 = 0; rw [e1]
  | ⟨2, _⟩ => show win1_1.index t (2 : Fin 3) * 64 + 1 * e.val = e.val; rw [e2]; omega

/-- The cos rows' block at point `t`. -/
theorem blk_cos (c : Dev nD) (t : Fin cfg1.N) (a : Fin 32) (e : Fin 64) :
    (iblk1 V c 2 t : Vec Ideal S32x1x64 .f32) (ix3 a (0 : Fin 1) e) = V c main_v8 (ix3 (pos t a) (0 : Fin 1) e) := by
  unfold iblk1
  rw [View.read_apply]
  show V c main_v8 _ = V c main_v8 _
  refine congrArg (V c main_v8) (funext fun b => Fin.ext ?_)
  obtain ⟨-, -, -, -, -, -, e0, e1, e2, -⟩ := idx_facts t
  match b with
  | ⟨0, _⟩ => show win1_2.index t (0 : Fin 3) * 32 + 1 * a.val = 32 * t.val + a.val; rw [e0]; omega
  | ⟨1, _⟩ => show win1_2.index t (1 : Fin 3) * 1 + 1 * 0 = 0; rw [e1]
  | ⟨2, _⟩ => show win1_2.index t (2 : Fin 3) * 64 + 1 * e.val = e.val; rw [e2]; omega

/-- The sin rows' block at point `t`. -/
theorem blk_sin (c : Dev nD) (t : Fin cfg1.N) (a : Fin 32) (e : Fin 64) :
    (iblk1 V c 3 t : Vec Ideal S32x1x64 .f32) (ix3 a (0 : Fin 1) e) = V c main_v16 (ix3 (pos t a) (0 : Fin 1) e) := by
  unfold iblk1
  rw [View.read_apply]
  show V c main_v16 _ = V c main_v16 _
  refine congrArg (V c main_v16) (funext fun b => Fin.ext ?_)
  obtain ⟨-, -, -, -, -, -, -, -, -, e0, e1, e2, -⟩ := idx_facts t
  match b with
  | ⟨0, _⟩ => show win1_3.index t (0 : Fin 3) * 32 + 1 * a.val = 32 * t.val + a.val; rw [e0]; omega
  | ⟨1, _⟩ => show win1_3.index t (1 : Fin 3) * 1 + 1 * 0 = 0; rw [e1]
  | ⟨2, _⟩ => show win1_3.index t (2 : Fin 3) * 64 + 1 * e.val = e.val; rw [e2]; omega

/-- `kvArr` of point `t`'s input blocks, at an index of the output block, is `kvArr` of the four arrays at the index
    that block element has in the result array. -/
theorem block_pt (c : Dev nD) (t : Fin cfg1.N) (j : (⟨4, ![32, 2, 128, 192]⟩ : Shape).Idx) :
    kvArr (n := 32) (iblk1 V c 0 t) (iblk1 V c 1 t) (iblk1 V c 2 t) (iblk1 V c 3 t) j
      = kvArr (n := 2048) (V c main_v18) (V c main_v19) (V c main_v8) (V c main_v16)
          (((cfg1.win 4).blk t).view.emb j) := by
  obtain ⟨a, s, h, d, rfl⟩ : ∃ (a : Fin 32) (s : Fin 2) (h : Fin 128) (d : Fin 192), j = ix4 a s h d :=
    ⟨j 0, j 1, j 2, j 3, eq_ix4 j⟩
  have hemb : ((cfg1.win 4).blk t).view.emb (ix4 a s h d) = ix4 (pos t a) s h d := by
    funext b; apply Fin.ext
    obtain ⟨-, -, -, -, -, -, -, -, -, -, -, -, e0, e1, e2, e3⟩ := idx_facts t
    match b with
    | ⟨0, _⟩ => show win1_4.index t (0 : Fin 4) * 32 + 1 * a.val = 32 * t.val + a.val; rw [e0]; omega
    | ⟨1, _⟩ => show win1_4.index t (1 : Fin 4) * 2 + 1 * s.val = s.val; rw [e1]; omega
    | ⟨2, _⟩ => show win1_4.index t (2 : Fin 4) * 128 + 1 * h.val = h.val; rw [e2]; omega
    | ⟨3, _⟩ => show win1_4.index t (3 : Fin 4) * 192 + 1 * d.val = d.val; rw [e3]; omega
  rw [hemb]
  exact kvArr_block (V c main_v18) (V c main_v19) (V c main_v8) (V c main_v16)
    (iblk1 V c 0 t) (iblk1 V c 1 t) (iblk1 V c 2 t) (iblk1 V c 3 t)
    (pos t) (blk_kv V c t) (blk_pe V c t) (blk_cos V c t) (blk_sin V c t) a s h d

/-- What point `t` writes back is block `t` of `kvArr` of the four arrays as the call finds them. -/
theorem flushed_eq (c : Dev nD) (t : Fin cfg1.N) :
    (dat1 V c).flushed 4 t
      = ((cfg1.win 4).blk t).view.read (Elt Ideal)
          (kvArr (n := 2048) (V c main_v18) (V c main_v19) (V c main_v8) (V c main_v16)) := by
  show (cfg1.win 4).cut (grid1.coords t) ((dat1 V c).after 4 t) = _
  rw [after1_4]
  unfold outsAt1
  rw [out_eq]
  funext j
  show kvArr (n := 32) (iblk1 V c 0 t) (iblk1 V c 1 t) (iblk1 V c 2 t) (iblk1 V c 3 t) j
      = kvArr (n := 2048) (V c main_v18) (V c main_v19) (V c main_v8) (V c main_v16) (((cfg1.win 4).blk t).view.emb j)
  exact block_pt V c t j

/-- An index of the result array is in point `t`'s block iff each coordinate is in the block's range. -/
theorem mem_blk (t : Fin cfg1.N) (i : S2048x2x128x192.Idx) :
    i ∈ ((cfg1.win 4).blk t).view.set ↔ ∀ a : Fin 4, win1_4.index t a * S32x2x128x192.size a ≤ (i a).val
      ∧ (i a).val < win1_4.index t a * S32x2x128x192.size a + S32x2x128x192.size a := by
  show i ∈ ((View.whole main_v21).slice (win1_4.rect t)).set ↔ _
  rw [View.set_slice_whole, Rect.mem_set_unit]
  exact Iff.rfl

/-- Every index of the result array is in the block of the point that owns its position: point `position / 32`. -/
theorem cover (i : S2048x2x128x192.Idx) :
    ∃ t : Fin cfg1.N, (cfg1.win 4).flush t = true ∧ i ∈ ((cfg1.win 4).blk t).view.set := by
  have hN : cfg1.N = 64 := N_1
  have h0 : (i 0).val < 2048 := (i 0).isLt
  have h1 : (i 1).val < 2 := (i 1).isLt
  have h2 : (i 2).val < 128 := (i 2).isLt
  have h3 : (i 3).val < 192 := (i 3).isLt
  have ht : (i 0).val / 32 < cfg1.N := by rw [hN]; omega
  refine ⟨⟨(i 0).val / 32, ht⟩, flush1_4 _, ?_⟩
  rw [mem_blk]
  obtain ⟨-, -, -, -, -, -, -, -, -, -, -, -, e0, e1, e2, e3⟩ := idx_facts ⟨(i 0).val / 32, ht⟩
  intro a
  match a with
  | ⟨0, _⟩ =>
    show win1_4.index ⟨(i 0).val / 32, ht⟩ (0 : Fin 4) * 32 ≤ (i 0).val
      ∧ (i 0).val < win1_4.index ⟨(i 0).val / 32, ht⟩ (0 : Fin 4) * 32 + 32
    rw [e0]; show (i 0).val / 32 * 32 ≤ (i 0).val ∧ (i 0).val < (i 0).val / 32 * 32 + 32; omega
  | ⟨1, _⟩ =>
    show win1_4.index ⟨(i 0).val / 32, ht⟩ (1 : Fin 4) * 2 ≤ (i 1).val
      ∧ (i 1).val < win1_4.index ⟨(i 0).val / 32, ht⟩ (1 : Fin 4) * 2 + 2
    rw [e1]; omega
  | ⟨2, _⟩ =>
    show win1_4.index ⟨(i 0).val / 32, ht⟩ (2 : Fin 4) * 128 ≤ (i 2).val
      ∧ (i 2).val < win1_4.index ⟨(i 0).val / 32, ht⟩ (2 : Fin 4) * 128 + 128
    rw [e2]; omega
  | ⟨3, _⟩ =>
    show win1_4.index ⟨(i 0).val / 32, ht⟩ (3 : Fin 4) * 192 ≤ (i 3).val
      ∧ (i 3).val < win1_4.index ⟨(i 0).val / 32, ht⟩ (3 : Fin 4) * 192 + 192
    rw [e3]; omega

/-- When the call returns, its result array is `kvArr` of the four operand arrays as the call found them. -/
theorem final (c : Dev nD) :
    (dat1 V c).arrAt 4 cfg1.N = kvArr (n := 2048) (V c main_v18) (V c main_v19) (V c main_v8) (V c main_v16) :=
  (dat1 V c).arrAt_eq_of_cover 4 _ (fun t _ => flushed_eq V c t) cover

end Arrays

end Cert.KernelIdeal.KVCall

end
-- ==== Proof.Glue.lean ====
/-
  From the six arguments to the two results of the idealized kernel program.

  Before the calls the host drops the leading unit axis of q, kv and k_pe (same row-major position, so entry
  (s, h, d) is entry (0, s, h, d)), and gathers the cos and sin tables at the position words: a negative word is moved
  up by 2048 once, the gather reads the word signed and clamps it into [0, 2047], and the gathered [2048, 64] table
  gets a unit head axis. The q call's arrays are those; the kv call runs after it and finds kv and k_pe untouched and
  the two gathered tables as the q call found them (it only read them). After the calls the host puts the leading
  unit axis back on both results.

  With the two calls' arrays known (the q call leaves `qArr`, the kv call `kvArr` of their operand arrays), each result
  at an index is the row formula of the specification at that index.
-/
import proofs.«138987_j61521111548175_2_alg».proof.Proof.Spec
import proofs.«138987_j61521111548175_2_alg».proof.Proof.QCall
import proofs.«138987_j61521111548175_2_alg».proof.Proof.KVCall
import proofs.«138987_j61521111548175_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Glue

open Cert.KernelIdeal Cert.KernelIdeal.Gen Cert.RopeSpec
open Idealize.ShloMosaic Idealize.ShloMosaic.TcCoe Idealize.ShloMosaic.ValueIdx Idealize.SL.Sem
open Idealize.ShloMosaic.StableHlo
open Idealize.ShloMosaic.Pipeline (Dat)

local notation "G₁" => gather_S2048x64_S2048x1_S2048x64_1_0_n_n_0_1_164

/-! ## The table gather at an index -/

/-- The table gather at result index (s, e): the row is the start word at (s, 0), read signed and clamped into
    [0, 2047]; the column is e. Axis 0 of the table is collapsed and named by the start index map; axis 1 is the one
    offset axis and carries the result's last coordinate. -/
theorem gather_apply {α : Type} (x : S2048x64.Idx → α) (idx : IVec S2048x1 32) (s : Fin 2048) (e : Fin 64) :
    Host.gather G₁ x idx (ix2 s e)
      = x (ix2 (⟨min (idx (ix2 s (0 : Fin 1))).toInt.toNat 2047,
          Nat.lt_succ_of_le (Nat.min_le_right _ _)⟩ : Fin 2048) e) := by
  unfold Host.gather
  refine congrArg x (funext fun b => Fin.ext ?_)
  match b with
  | ⟨0, _⟩ =>
    show (G₁).start (ix2 s e) idx 0 + (G₁).batchCoord (ix2 s e) 0 + (G₁).offCoord (ix2 s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G₁).startIndexMap from List.mem_singleton.mpr rfl)]
    have hsi : (G₁).siIdx (ix2 s e) ⟨List.idxOf (0 : Fin 2) (G₁).startIndexMap,
        List.idxOf_lt_length_iff.2 (List.mem_singleton.mpr rfl)⟩ = ix2 s (0 : Fin 1) := by
      funext k; refine Fin.ext ?_
      match k with
      | ⟨0, _⟩ => rfl
      | ⟨1, _⟩ => rfl
    rw [hsi]
    rfl
  | ⟨1, _⟩ =>
    show (G₁).start (ix2 s e) idx 1 + (G₁).batchCoord (ix2 s e) 1 + (G₁).offCoord (ix2 s e) 1 = _
    rw [GatherDims.batchCoord_eq_zero _ _ _ List.not_mem_nil]
    have hs : (G₁).start (ix2 s e) idx 1 = 0 := by
      unfold GatherDims.start
      rw [dif_neg (show ¬ (1 : Fin 2) ∈ (G₁).startIndexMap from by decide)]
    rw [hs]
    have ho : (G₁).offCoord (ix2 s e) 1 = e.val := by
      unfold GatherDims.offCoord
      rw [dif_pos ((GatherDims.mem_sKept _ _).mpr ⟨by decide, List.not_mem_nil⟩)]
      rfl
    rw [ho]
    show 0 + 0 + e.val = e.val
    omega

/-- The gathered table with a unit head axis, from the position words: entry (s, 0, e) is the specification's table
    row of position `s` at lane `e`. Stated for any table `x` and position words `p`. -/
theorem gathered_at (x : FVec Ideal S2048x64 .f32) (p : IVec S1x2048 32) (s : Fin 2048) (e : Fin 64) :
    broadcastInDim S2048x1x64 ![0, 2] bcast_S2048x64_S2048x1x64_0_2
        (Host.gather G₁ x
          (broadcastInDim S2048x1 ![0] bcast_S2048_S2048x1_0
            (select
              (cmpi CmpIPredicate.slt (shapeCast S2048 p shapeCasts_S1x2048_S2048)
                (broadcastInDim S2048 ![] bcast_S_S2048 (constantI S_ 32 0#32)))
              (addi (shapeCast S2048 p shapeCasts_S1x2048_S2048)
                (broadcastInDim S2048 ![] bcast_S_S2048 (constantI S_ 32 2048#32)))
              (shapeCast S2048 p shapeCasts_S1x2048_S2048))))
        (ix3 s (0 : Fin 1) e)
      = tab x p s e := by
  refine (broadcastInDim_apply _ bcast_S2048x64_S2048x1x64_0_2 _ (ix3 s (0 : Fin 1) e) (ix2 s e) (fun a => match a with
    | ⟨0, _⟩ => by show s.val = if (2048 : Nat) = 1 then 0 else s.val; rw [if_neg (by decide)]
    | ⟨1, _⟩ => by show e.val = if (64 : Nat) = 1 then 0 else e.val; rw [if_neg (by decide)])).trans ?_
  refine (gather_apply x _ s e).trans ?_
  unfold tab row
  refine congrArg (fun r : Fin 2048 => x (ix2 r e)) (Fin.ext ?_)
  show min (_ : BitVec 32).toInt.toNat 2047 = min (_ : BitVec 32).toInt.toNat 2047
  have hw : broadcastInDim S2048x1 ![0] bcast_S2048_S2048x1_0
        (select
          (cmpi CmpIPredicate.slt (shapeCast S2048 p shapeCasts_S1x2048_S2048)
            (broadcastInDim S2048 ![] bcast_S_S2048 (constantI S_ 32 0#32)))
          (addi (shapeCast S2048 p shapeCasts_S1x2048_S2048)
            (broadcastInDim S2048 ![] bcast_S_S2048 (constantI S_ 32 2048#32)))
          (shapeCast S2048 p shapeCasts_S1x2048_S2048)) (ix2 s (0 : Fin 1))
      = Scalar.select (IntOp.cmpi .slt (p (ix2 (0 : Fin 1) s)) 0#32) (IntOp.addi (p (ix2 (0 : Fin 1) s)) 2048#32)
          (p (ix2 (0 : Fin 1) s)) := by
    refine (broadcastInDim_apply _ bcast_S2048_S2048x1_0 _ (ix2 s (0 : Fin 1)) (ix1 s) (fun a => match a with
      | ⟨0, _⟩ => by show s.val = if (2048 : Nat) = 1 then 0 else s.val; rw [if_neg (by decide)])).trans ?_
    have hp : shapeCast S2048 p shapeCasts_S1x2048_S2048 (ix1 s) = p (ix2 (0 : Fin 1) s) :=
      shapeCast_apply p _ (ix1 s) (ix2 (0 : Fin 1) s) (by
        rw [Shape.rowMajor_val_two, Shape.rowMajor_val_one]
        show 0 * 2048 + s.val = s.val
        omega)
    show Scalar.select (IntOp.cmpi .slt (shapeCast S2048 p shapeCasts_S1x2048_S2048 (ix1 s)) 0#32)
        (IntOp.addi (shapeCast S2048 p shapeCasts_S1x2048_S2048 (ix1 s)) 2048#32)
        (shapeCast S2048 p shapeCasts_S1x2048_S2048 (ix1 s)) = _
    rw [hp]
  rw [hw]

/-! ## The arrays the two calls find -/

section Run

variable (m : (ℓ : Loc nD τ sig) → Buf (Elt Ideal) ℓ) (ρ : Dev nD → PrngReg)

/-- q without its leading unit axis. -/
theorem q_at (c : Dev nD) (s : Fin 2048) (h : Fin 128) (d : Fin 192) :
    V1 m ρ c main_v17 (ix3 s h d) = (m ((c : Thread nD τ).loc main_arg0)) (ix4 (0 : Fin 1) s h d) := by
  have e : (V1 m ρ c main_v17 : S2048x128x192.Idx → EReal)
      = shapeCast S2048x128x192 (m ((c : Thread nD τ).loc main_arg0)) shapeCasts_S1x2048x128x192_S2048x128x192 := by
    dsimp only [V1, W1, hostOps0]; after_results; rfl
  rw [e]
  exact shapeCast_apply _ _ (ix3 s h d) (ix4 (0 : Fin 1) s h d) (by
    rw [Shape.rowMajor_val_four, Shape.rowMajor_val_three]
    show ((0 * 2048 + s.val) * 128 + h.val) * 192 + d.val = (s.val * 128 + h.val) * 192 + d.val
    omega)

/-- kv without its leading unit axis. -/
theorem kv_at (c : Dev nD) (s : Fin 2048) (h : Fin 128) (d : Fin 256) :
    V1 m ρ c main_v18 (ix3 s h d) = (m ((c : Thread nD τ).loc main_arg1)) (ix4 (0 : Fin 1) s h d) := by
  have e : (V1 m ρ c main_v18 : S2048x128x256.Idx → EReal)
      = shapeCast S2048x128x256 (m ((c : Thread nD τ).loc main_arg1)) shapeCasts_S1x2048x128x256_S2048x128x256 := by
    dsimp only [V1, W1, hostOps0]; after_results; rfl
  rw [e]
  exact shapeCast_apply _ _ (ix3 s h d) (ix4 (0 : Fin 1) s h d) (by
    rw [Shape.rowMajor_val_four, Shape.rowMajor_val_three]
    show ((0 * 2048 + s.val) * 128 + h.val) * 256 + d.val = (s.val * 128 + h.val) * 256 + d.val
    omega)

/-- k_pe without its leading unit axis. -/
theorem pe_at (c : Dev nD) (s : Fin 2048) (e : Fin 64) :
    V1 m ρ c main_v19 (ix3 s (0 : Fin 1) e) = (m ((c : Thread nD τ).loc main_arg2)) (ix4 (0 : Fin 1) s (0 : Fin 1) e) := by
  have e' : (V1 m ρ c main_v19 : S2048x1x64.Idx → EReal)
      = shapeCast S2048x1x64 (m ((c : Thread nD τ).loc main_arg2)) shapeCasts_S1x2048x1x64_S2048x1x64 := by
    dsimp only [V1, W1, hostOps0]; after_results; rfl
  rw [e']
  exact shapeCast_apply _ _ (ix3 s (0 : Fin 1) e) (ix4 (0 : Fin 1) s (0 : Fin 1) e) (by
    rw [Shape.rowMajor_val_four, Shape.rowMajor_val_three]
    show ((0 * 2048 + s.val) * 1 + 0) * 64 + e.val = (s.val * 1 + 0) * 64 + e.val
    omega)

/-- The gathered cos rows. -/
theorem cos_at (c : Dev nD) (s : Fin 2048) (e : Fin 64) :
    V1 m ρ c main_v8 (ix3 s (0 : Fin 1) e) = tab (m ((c : Thread nD τ).loc main_arg3)) (m ((c : Thread nD τ).loc main_arg5)) s e := by
  have e' : (V1 m ρ c main_v8 : S2048x1x64.Idx → EReal)
      = broadcastInDim S2048x1x64 ![0, 2] bcast_S2048x64_S2048x1x64_0_2
        (Host.gather G₁ (m ((c : Thread nD τ).loc main_arg3))
          (broadcastInDim S2048x1 ![0] bcast_S2048_S2048x1_0
            (select
              (cmpi CmpIPredicate.slt (shapeCast S2048 (m ((c : Thread nD τ).loc main_arg5)) shapeCasts_S1x2048_S2048)
                (broadcastInDim S2048 ![] bcast_S_S2048 (constantI S_ 32 0#32)))
              (addi (shapeCast S2048 (m ((c : Thread nD τ).loc main_arg5)) shapeCasts_S1x2048_S2048)
                (broadcastInDim S2048 ![] bcast_S_S2048 (constantI S_ 32 2048#32)))
              (shapeCast S2048 (m ((c : Thread nD τ).loc main_arg5)) shapeCasts_S1x2048_S2048)))) := by
    dsimp only [V1, W1, hostOps0]; after_results; rfl
  rw [e']
  exact gathered_at _ _ s e

/-- The gathered sin rows. -/
theorem sin_at (c : Dev nD) (s : Fin 2048) (e : Fin 64) :
    V1 m ρ c main_v16 (ix3 s (0 : Fin 1) e) = tab (m ((c : Thread nD τ).loc main_arg4)) (m ((c : Thread nD τ).loc main_arg5)) s e := by
  have e' : (V1 m ρ c main_v16 : S2048x1x64.Idx → EReal)
      = broadcastInDim S2048x1x64 ![0, 2] bcast_S2048x64_S2048x1x64_0_2
        (Host.gather G₁ (m ((c : Thread nD τ).loc main_arg4))
          (broadcastInDim S2048x1 ![0] bcast_S2048_S2048x1_0
            (select
              (cmpi CmpIPredicate.slt (shapeCast S2048 (m ((c : Thread nD τ).loc main_arg5)) shapeCasts_S1x2048_S2048)
                (broadcastInDim S2048 ![] bcast_S_S2048 (constantI S_ 32 0#32)))
              (addi (shapeCast S2048 (m ((c : Thread nD τ).loc main_arg5)) shapeCasts_S1x2048_S2048)
                (broadcastInDim S2048 ![] bcast_S_S2048 (constantI S_ 32 2048#32)))
              (shapeCast S2048 (m ((c : Thread nD τ).loc main_arg5)) shapeCasts_S1x2048_S2048)))) := by
    dsimp only [V1, W1, hostOps0]; after_results; rfl
  rw [e']
  exact gathered_at _ _ s e

/-! ## Between the calls: what the kv call finds is what the q call found -/

/-- kv is not an array of the q call. -/
theorem kv_kept (c : Dev nD) : V2 m ρ c main_v18 = V1 m ρ c main_v18 := W2_of_ne m ρ c main_v18 (by decide)

/-- k_pe is not an array of the q call. -/
theorem pe_kept (c : Dev nD) : V2 m ρ c main_v19 = V1 m ρ c main_v19 := W2_of_ne m ρ c main_v19 (by decide)

/-- The cos rows are an input of the q call: it leaves them as it found them. -/
theorem cos_kept (c : Dev nD) : V2 m ρ c main_v8 = V1 m ρ c main_v8 :=
  (W2_arr m ρ c 1).trans (((dat0 (V1 m ρ) c).arrAt_in 1 rfl _).trans (A_eq0 (V1 m ρ) c 1))

/-- The sin rows are an input of the q call: it leaves them as it found them. -/
theorem sin_kept (c : Dev nD) : V2 m ρ c main_v16 = V1 m ρ c main_v16 :=
  (W2_arr m ρ c 2).trans (((dat0 (V1 m ρ) c).arrAt_in 2 rfl _).trans (A_eq0 (V1 m ρ) c 2))

/-! ## The two results -/

/-- q's result: the q call's array with the leading unit axis put back is the specification's array. -/
theorem res_q (c : Dev nD) :
    (W4 m ρ c (Proc.devRef .tc main_v22) : S1x2048x128x192.Idx → EReal)
      = qOut (m ((c : Thread nD τ).loc main_arg0)) (m ((c : Thread nD τ).loc main_arg3)) (m ((c : Thread nD τ).loc main_arg4)) (m ((c : Thread nD τ).loc main_arg5)) := by
  have e : (W4 m ρ c (Proc.devRef .tc main_v22) : S1x2048x128x192.Idx → EReal)
      = broadcastInDim S1x2048x128x192 ![1, 2, 3] bcast_S2048x128x192_S1x2048x128x192_1_2_3
          (W3 m ρ c (Proc.devRef .tc main_v20)) := by
    dsimp only [W4, hostOps2]; after_results
  have e20 : (W3 m ρ c (Proc.devRef .tc main_v20) : S2048x128x192.Idx → EReal)
      = qArr (n := 2048) (V1 m ρ c main_v17) (V1 m ρ c main_v8) (V1 m ρ c main_v16) :=
    (W3_of_ne m ρ c main_v20 (by decide)).trans ((W2_arr m ρ c 3).trans (QCall.final (V1 m ρ) c))
  rw [e, e20]
  funext i
  obtain ⟨a, s, h, d, rfl⟩ : ∃ (a : Fin 1) (s : Fin 2048) (h : Fin 128) (d : Fin 192), i = ix4 a s h d :=
    ⟨i 0, i 1, i 2, i 3, eq_ix4 i⟩
  refine (broadcastInDim_apply _ bcast_S2048x128x192_S1x2048x128x192_1_2_3 _ (ix4 a s h d) (ix3 s h d) (fun b => match b with
    | ⟨0, _⟩ => by show s.val = if (2048 : Nat) = 1 then 0 else s.val; rw [if_neg (by decide)]
    | ⟨1, _⟩ => by show h.val = if (128 : Nat) = 1 then 0 else h.val; rw [if_neg (by decide)]
    | ⟨2, _⟩ => by show d.val = if (192 : Nat) = 1 then 0 else d.val; rw [if_neg (by decide)])).trans ?_
  rw [qArr_ix3, qOut_ix4]
  unfold qAt
  have hq : (fun d' : Fin 192 => V1 m ρ c main_v17 (ix3 s h d'))
      = fun d' : Fin 192 => (m ((c : Thread nD τ).loc main_arg0)) (ix4 (0 : Fin 1) s h d') := funext fun d' => q_at m ρ c s h d'
  have hc : (fun e : Fin 64 => V1 m ρ c main_v8 (ix3 s (0 : Fin 1) e))
      = tab (m ((c : Thread nD τ).loc main_arg3)) (m ((c : Thread nD τ).loc main_arg5)) s := funext fun e => cos_at m ρ c s e
  have hs : (fun e : Fin 64 => V1 m ρ c main_v16 (ix3 s (0 : Fin 1) e))
      = tab (m ((c : Thread nD τ).loc main_arg4)) (m ((c : Thread nD τ).loc main_arg5)) s := funext fun e => sin_at m ρ c s e
  exact congrFun (congr (congr (congrArg qRow hq) hc) hs) d

/-- kv's result: the kv call's array with the leading unit axis put back is the specification's array. -/
theorem res_kv (c : Dev nD) :
    (W4 m ρ c (Proc.devRef .tc main_v23) : S1x2048x2x128x192.Idx → EReal)
      = kvOut (m ((c : Thread nD τ).loc main_arg1)) (m ((c : Thread nD τ).loc main_arg2)) (m ((c : Thread nD τ).loc main_arg3)) (m ((c : Thread nD τ).loc main_arg4)) (m ((c : Thread nD τ).loc main_arg5)) := by
  have e : (W4 m ρ c (Proc.devRef .tc main_v23) : S1x2048x2x128x192.Idx → EReal)
      = broadcastInDim S1x2048x2x128x192 ![1, 2, 3, 4] bcast_S2048x2x128x192_S1x2048x2x128x192_1_2_3_4
          (W3 m ρ c (Proc.devRef .tc main_v21)) := by
    dsimp only [W4, hostOps2]; after_results
  have e21 : (W3 m ρ c (Proc.devRef .tc main_v21) : S2048x2x128x192.Idx → EReal)
      = kvArr (n := 2048) (V1 m ρ c main_v18) (V1 m ρ c main_v19) (V1 m ρ c main_v8) (V1 m ρ c main_v16) := by
    refine ((W3_arr m ρ c 4).trans (KVCall.final (V2 m ρ) c)).trans ?_
    rw [kv_kept, pe_kept, cos_kept, sin_kept]
  rw [e, e21]
  funext i
  obtain ⟨a, s, j, h, d, rfl⟩ : ∃ (a : Fin 1) (s : Fin 2048) (j : Fin 2) (h : Fin 128) (d : Fin 192), i = ix5 a s j h d :=
    ⟨i 0, i 1, i 2, i 3, i 4, eq_ix5 i⟩
  refine (broadcastInDim_apply _ bcast_S2048x2x128x192_S1x2048x2x128x192_1_2_3_4 _ (ix5 a s j h d) (ix4 s j h d) (fun b => match b with
    | ⟨0, _⟩ => by show s.val = if (2048 : Nat) = 1 then 0 else s.val; rw [if_neg (by decide)]
    | ⟨1, _⟩ => by show j.val = if (2 : Nat) = 1 then 0 else j.val; rw [if_neg (by decide)]
    | ⟨2, _⟩ => by show h.val = if (128 : Nat) = 1 then 0 else h.val; rw [if_neg (by decide)]
    | ⟨3, _⟩ => by show d.val = if (192 : Nat) = 1 then 0 else d.val; rw [if_neg (by decide)])).trans ?_
  rw [kvArr_ix4, kvOut_ix5]
  unfold kvAt
  have hkv : (fun d' : Fin 256 => V1 m ρ c main_v18 (ix3 s h d'))
      = fun d' : Fin 256 => (m ((c : Thread nD τ).loc main_arg1)) (ix4 (0 : Fin 1) s h d') := funext fun d' => kv_at m ρ c s h d'
  have hpe : (fun e : Fin 64 => V1 m ρ c main_v19 (ix3 s (0 : Fin 1) e))
      = fun e : Fin 64 => (m ((c : Thread nD τ).loc main_arg2)) (ix4 (0 : Fin 1) s (0 : Fin 1) e) := funext fun e => pe_at m ρ c s e
  have hc : (fun e : Fin 64 => V1 m ρ c main_v8 (ix3 s (0 : Fin 1) e))
      = tab (m ((c : Thread nD τ).loc main_arg3)) (m ((c : Thread nD τ).loc main_arg5)) s := funext fun e => cos_at m ρ c s e
  have hs : (fun e : Fin 64 => V1 m ρ c main_v16 (ix3 s (0 : Fin 1) e))
      = tab (m ((c : Thread nD τ).loc main_arg4)) (m ((c : Thread nD τ).loc main_arg5)) s := funext fun e => sin_at m ρ c s e
  exact congrFun (congrFun (congr (congr (congr (congrArg kvRow hkv) hpe) hc) hs) j) d

end Run

end Cert.KernelIdeal.Glue

end
-- ==== Proof.RefSide.lean ====
/-
  The reference program's two results, read index by index, are the specification's two arrays.

  Both results are built from slices, two-piece concatenates, unit-axis broadcasts, one high padding and two table
  gathers. Each is read outermost operation first at an index written by its coordinates:

  * the table gather reads, at (0, s, e), row r(s) and column e of the table, where r(s) is the start word at
    position s read as a signed integer and clamped into [0, 2047]; the start word is the position word, moved up
    by 2048 once when negative — the specification's table row;
  * a two-piece concatenate along the last axis reads its first piece below the first extent and its second piece,
    the first extent less, from there on; with the negated upper half and the lower half of a 64-vector as pieces
    this is "rotate half";
  * the padding of the last axis by 64 on the high side reads its operand below 128 and the padding value, the
    integer 0 converted, which is the real 0, from 128 on;
  * the concatenate along the slot axis of the two rows, each with a unit slot axis, reads the first at slot 0 and
    the second at slot 1.
-/
import proofs.«138987_j61521111548175_2_alg».proof.Proof.Spec
import proofs.«138987_j61521111548175_2_alg».proof.Proof.Gen.ReferenceIdeal.Read
import Idealize.ShloMosaic.Lib.Pipeline.Value
import Idealize.ShloMosaic.Lib.ValueIdx

namespace Cert.RefSide

open Idealize.ShloMosaic Idealize.ShloMosaic.ValueIdx Cert.ReferenceIdeal Cert.ReferenceIdeal.Read
open Cert.ReferenceIdeal.Facts₀

local notation "G₀" => gather_S2048x64_S1x2048x1_S1x2048x64_2_0_n_n_0_2_164

/-- The table gather at result index (a, s, e): the row is the start word at (0, s, 0), read signed and clamped into
    [0, 2047]; the column is e. Axis 0 of the table is collapsed and named by the start index map; axis 1 is the one
    offset axis and carries the result's last coordinate. -/
theorem gather_apply {α : Type} (x : S2048x64.Idx → α) (idx : IVec S1x2048x1 32) (a : Fin 1) (s : Fin 2048) (e : Fin 64) :
    Host.gather G₀ x idx (ix3 a s e)
      = x (ix2 (⟨min (idx (ix3 (0 : Fin 1) s (0 : Fin 1))).toInt.toNat 2047,
          Nat.lt_succ_of_le (Nat.min_le_right _ _)⟩ : Fin 2048) e) := by
  obtain rfl : a = 0 := Subsingleton.elim _ _
  unfold Host.gather
  refine congrArg x (funext fun b => Fin.ext ?_)
  match b with
  | ⟨0, _⟩ =>
    show (G₀).start (ix3 0 s e) idx 0 + (G₀).batchCoord (ix3 0 s e) 0 + (G₀).offCoord (ix3 0 s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G₀).startIndexMap from List.mem_singleton.mpr rfl)]
    have hsi : (G₀).siIdx (ix3 0 s e) ⟨List.idxOf (0 : Fin 2) (G₀).startIndexMap,
        List.idxOf_lt_length_iff.2 (List.mem_singleton.mpr rfl)⟩ = ix3 (0 : Fin 1) s (0 : Fin 1) := by
      funext c; refine Fin.ext ?_
      match c with
      | ⟨0, _⟩ => rfl
      | ⟨1, _⟩ => rfl
      | ⟨2, _⟩ => rfl
    rw [hsi]
    rfl
  | ⟨1, _⟩ =>
    show (G₀).start (ix3 0 s e) idx 1 + (G₀).batchCoord (ix3 0 s e) 1 + (G₀).offCoord (ix3 0 s e) 1 = _
    rw [GatherDims.batchCoord_eq_zero _ _ _ List.not_mem_nil]
    have hs : (G₀).start (ix3 0 s e) idx 1 = 0 := by
      unfold GatherDims.start
      rw [dif_neg (show ¬ (1 : Fin 2) ∈ (G₀).startIndexMap from by decide)]
    rw [hs]
    have ho : (G₀).offCoord (ix3 0 s e) 1 = e.val := by
      unfold GatherDims.offCoord
      rw [dif_pos ((GatherDims.mem_sKept _ _).mpr ⟨by decide, List.not_mem_nil⟩)]
      rfl
    rw [ho]
    show 0 + 0 + e.val = e.val
    omega

/-! ## The start-index word and the gathered tables -/

/-- The start-index word at (a, s, z): the position word of s, moved up by 2048 once when it is negative. -/
theorem v5_at (x5 : IVec S1x2048 32) (a : Fin 1) (s : Fin 2048) (z : Fin 1) :
    val_main_v5 (F := Ideal) x5 (ix3 a s z)
      = Scalar.select (IntOp.cmpi .slt (x5 (ix2 (0 : Fin 1) s)) 0#32) (IntOp.addi (x5 (ix2 (0 : Fin 1) s)) 2048#32)
          (x5 (ix2 (0 : Fin 1) s)) := by
  refine (val_main_v5_apply (F := Ideal) x5 _).trans ?_
  have hi : idx_main_v5 (ix3 a s z) = ix2 (0 : Fin 1) s := by
    funext b; match b with | ⟨0, _⟩ => rfl | ⟨1, _⟩ => rfl
  rw [hi, val_main_v4_apply, val_main_v1_apply, val_main_v3_apply, val_main_v0_apply, val_main_v2_apply,
    val_main_c_apply, val_main_c_0_apply]

/-- A table gathered at start words that are the moved-up position words reads the specification's table row. -/
theorem gather_tab (x : FVec Ideal S2048x64 .f32) (x5 : IVec S1x2048 32) (w : IVec S1x2048x1 32)
    (a : Fin 1) (s : Fin 2048) (e : Fin 64)
    (hw : w (ix3 (0 : Fin 1) s (0 : Fin 1))
      = Scalar.select (IntOp.cmpi .slt (x5 (ix2 (0 : Fin 1) s)) 0#32) (IntOp.addi (x5 (ix2 (0 : Fin 1) s)) 2048#32)
          (x5 (ix2 (0 : Fin 1) s))) :
    Host.gather G₀ x w (ix3 a s e) = Cert.RopeSpec.tab x x5 s e := by
  refine (gather_apply x w a s e).trans ?_
  unfold Cert.RopeSpec.tab Cert.RopeSpec.row
  refine congrArg (fun r : Fin 2048 => x (ix2 r e)) (Fin.ext ?_)
  show min (w (ix3 (0 : Fin 1) s (0 : Fin 1))).toInt.toNat 2047 = _
  rw [hw]

/-- The second gather's start words are the first's (the program computes them twice). -/
theorem v13_eq (x5 : IVec S1x2048 32) : val_main_v13 (F := Ideal) x5 = val_main_v5 (F := Ideal) x5 := rfl

/-- The gathered table, with its unit head axis, at (a, s, z, e). -/
theorem v7_at (x3 : FVec Ideal S2048x64 .f32) (x5 : IVec S1x2048 32) (a : Fin 1) (s : Fin 2048) (z : Fin 1) (e : Fin 64) :
    val_main_v7 (F := Ideal) x3 x5 (ix4 a s z e) = Cert.RopeSpec.tab x3 x5 s e := by
  refine (val_main_v7_apply (F := Ideal) x3 x5 _).trans ?_
  have hi : idx_main_v7 (ix4 a s z e) = ix3 (0 : Fin 1) s e := by
    funext b; match b with | ⟨0, _⟩ => rfl | ⟨1, _⟩ => rfl | ⟨2, _⟩ => rfl
  rw [hi]
  exact gather_tab x3 x5 _ 0 s e (v5_at x5 0 s 0)

theorem v15_at (x4 : FVec Ideal S2048x64 .f32) (x5 : IVec S1x2048 32) (a : Fin 1) (s : Fin 2048) (z : Fin 1) (e : Fin 64) :
    val_main_v15 (F := Ideal) x4 x5 (ix4 a s z e) = Cert.RopeSpec.tab x4 x5 s e := by
  refine (val_main_v15_apply (F := Ideal) x4 x5 _).trans ?_
  have hi : idx_main_v15 (ix4 a s z e) = ix3 (0 : Fin 1) s e := by
    funext b; match b with | ⟨0, _⟩ => rfl | ⟨1, _⟩ => rfl | ⟨2, _⟩ => rfl
  rw [hi]
  exact gather_tab x4 x5 _ 0 s e ((congrFun (v13_eq x5) _).trans (v5_at x5 0 s 0))

/-- The gathered table spread over the heads, at (a, s, h, e). -/
theorem v18_at (x3 : FVec Ideal S2048x64 .f32) (x5 : IVec S1x2048 32) (a : Fin 1) (s : Fin 2048) (h : Fin 128) (e : Fin 64) :
    val_main_v18 (F := Ideal) x3 x5 (ix4 a s h e) = Cert.RopeSpec.tab x3 x5 s e := by
  refine (val_main_v18_apply (F := Ideal) x3 x5 _).trans ?_
  have hi : idx_main_v18 (ix4 a s h e) = ix4 (0 : Fin 1) s (0 : Fin 1) e := by
    funext b; match b with | ⟨0, _⟩ => rfl | ⟨1, _⟩ => rfl | ⟨2, _⟩ => rfl | ⟨3, _⟩ => rfl
  rw [hi]
  exact v7_at x3 x5 0 s 0 e

theorem v24_at (x4 : FVec Ideal S2048x64 .f32) (x5 : IVec S1x2048 32) (a : Fin 1) (s : Fin 2048) (h : Fin 128) (e : Fin 64) :
    val_main_v24 (F := Ideal) x4 x5 (ix4 a s h e) = Cert.RopeSpec.tab x4 x5 s e := by
  refine (val_main_v24_apply (F := Ideal) x4 x5 _).trans ?_
  have hi : idx_main_v24 (ix4 a s h e) = ix4 (0 : Fin 1) s (0 : Fin 1) e := by
    funext b; match b with | ⟨0, _⟩ => rfl | ⟨1, _⟩ => rfl | ⟨2, _⟩ => rfl | ⟨3, _⟩ => rfl
  rw [hi]
  exact v15_at x4 x5 0 s 0 e

/-! ## q's result -/

/-- Lane e of the embedded part of q's row: lane 128 + e of q. -/
theorem v17_at (x0 : FVec Ideal S1x2048x128x192 .f32) (a : Fin 1) (s : Fin 2048) (h : Fin 128) (e : Fin 64) :
    val_main_v17 (F := Ideal) x0 (ix4 a s h e) = x0 (ix4 a s h (⟨128 + e.val, by omega⟩ : Fin 192)) := by
  refine (val_main_v17_apply (F := Ideal) x0 _).trans (congrArg x0 ?_)
  funext b; match b with | ⟨0, _⟩ => rfl | ⟨1, _⟩ => rfl | ⟨2, _⟩ => rfl | ⟨3, _⟩ => rfl

/-- The two-piece concatenate of the negated upper half and the lower half is "rotate half" of the embedded part. -/
theorem v23_at (x0 : FVec Ideal S1x2048x128x192 .f32) (a : Fin 1) (s : Fin 2048) (h : Fin 128) (e : Fin 64) :
    val_main_v23 (F := Ideal) x0 (ix4 a s h e)
      = Cert.RopeSpec.rot (fun e' : Fin 64 => x0 (ix4 a s h (⟨128 + e'.val, by omega⟩ : Fin 192))) e := by
  unfold val_main_v23 Cert.RopeSpec.rot
  by_cases he : e.val < 32
  · rw [dif_pos he]
    refine (concatenate_pair_apply_left _ (val_main_v21 (F := Ideal) x0) (val_main_v22 (F := Ideal) x0)
      concatenates_S1x2048x128x32_S1x2048x128x32_S1x2048x128x64_d3 (ix4 a s h e) rfl
      (ix4 a s h (⟨e.val, he⟩ : Fin 32)) (fun b => match b with | ⟨0, _⟩ => rfl | ⟨1, _⟩ => rfl | ⟨2, _⟩ => rfl | ⟨3, _⟩ => rfl)).trans ?_
    refine (val_main_v21_apply (F := Ideal) x0 _).trans ?_
    show -(val_main_v20 (F := Ideal) x0 (ix4 a s h (⟨e.val, he⟩ : Fin 32))) = _
    refine congrArg Neg.neg ?_
    refine (val_main_v20_apply (F := Ideal) x0 _).trans ?_
    refine (val_main_v17_apply (F := Ideal) x0 _).trans (congrArg x0 ?_)
    funext b
    match b with
    | ⟨0, _⟩ => rfl
    | ⟨1, _⟩ => rfl
    | ⟨2, _⟩ => rfl
    | ⟨3, _⟩ => exact Fin.ext (by show 128 + (32 + e.val) = 128 + (e.val + 32); omega)
  · rw [dif_neg he]
    have he' : e.val - 32 < 32 := by omega
    refine (concatenate_pair_apply_right _ (val_main_v21 (F := Ideal) x0) (val_main_v22 (F := Ideal) x0)
      concatenates_S1x2048x128x32_S1x2048x128x32_S1x2048x128x64_d3 (ix4 a s h e) rfl rfl
      (ix4 a s h (⟨e.val - 32, he'⟩ : Fin 32)) (fun b => match b with | ⟨0, _⟩ => fun _ => rfl | ⟨1, _⟩ => fun _ => rfl | ⟨2, _⟩ => fun _ => rfl | ⟨3, _⟩ => fun hne => absurd rfl hne)
      (by show (e.val - 32) + 32 = e.val; omega)).trans ?_
    refine (val_main_v22_apply (F := Ideal) x0 _).trans ?_
    refine (val_main_v17_apply (F := Ideal) x0 _).trans (congrArg x0 ?_)
    funext b
    match b with
    | ⟨0, _⟩ => rfl
    | ⟨1, _⟩ => rfl
    | ⟨2, _⟩ => rfl
    | ⟨3, _⟩ => rfl

/-- The embedded part of q's row is the rotary embedding of lanes 128..191 with the two table rows of s. -/
theorem v26_at (x0 : FVec Ideal S1x2048x128x192 .f32) (x3 x4 : FVec Ideal S2048x64 .f32) (x5 : IVec S1x2048 32)
    (a : Fin 1) (s : Fin 2048) (h : Fin 128) (e : Fin 64) :
    val_main_v26 (F := Ideal) x0 x3 x4 x5 (ix4 a s h e)
      = Cert.RopeSpec.rope (fun e' : Fin 64 => x0 (ix4 a s h (⟨128 + e'.val, by omega⟩ : Fin 192)))
          (Cert.RopeSpec.tab x3 x5 s) (Cert.RopeSpec.tab x4 x5 s) e := by
  unfold Cert.RopeSpec.rope
  refine (val_main_v26_apply (F := Ideal) x0 x3 x4 x5 _).trans ?_
  show val_main_v19 (F := Ideal) x0 x3 x5 (ix4 a s h e) + val_main_v25 (F := Ideal) x0 x4 x5 (ix4 a s h e) = _
  refine congrArg₂ (· + ·) ?_ ?_
  · refine (val_main_v19_apply (F := Ideal) x0 x3 x5 _).trans ?_
    show val_main_v17 (F := Ideal) x0 (ix4 a s h e) * val_main_v18 (F := Ideal) x3 x5 (ix4 a s h e) = _
    exact congrArg₂ (· * ·) (v17_at x0 a s h e) (v18_at x3 x5 a s h e)
  · refine (val_main_v25_apply (F := Ideal) x0 x4 x5 _).trans ?_
    show val_main_v23 (F := Ideal) x0 (ix4 a s h e) * val_main_v24 (F := Ideal) x4 x5 (ix4 a s h e) = _
    exact congrArg₂ (· * ·) (v23_at x0 a s h e) (v24_at x4 x5 a s h e)

/-- q's result at (a, s, h, d): lanes below 128 are q's, the rest the embedded part. -/
theorem v27_at (x0 : FVec Ideal S1x2048x128x192 .f32) (x3 x4 : FVec Ideal S2048x64 .f32) (x5 : IVec S1x2048 32)
    (a : Fin 1) (s : Fin 2048) (h : Fin 128) (d : Fin 192) :
    val_main_v27 (F := Ideal) x0 x3 x4 x5 (ix4 a s h d) = Cert.RopeSpec.qAt x0 x3 x4 x5 s h d := by
  obtain rfl : a = 0 := Subsingleton.elim _ _
  unfold val_main_v27 Cert.RopeSpec.qAt Cert.RopeSpec.qRow
  by_cases hd : d.val < 128
  · rw [dif_pos hd]
    refine (concatenate_pair_apply_left _ (val_main_v16 (F := Ideal) x0) (val_main_v26 (F := Ideal) x0 x3 x4 x5)
      concatenates_S1x2048x128x128_S1x2048x128x64_S1x2048x128x192_d3 (ix4 (0 : Fin 1) s h d) rfl
      (ix4 (0 : Fin 1) s h (⟨d.val, hd⟩ : Fin 128)) (fun b => match b with | ⟨0, _⟩ => rfl | ⟨1, _⟩ => rfl | ⟨2, _⟩ => rfl | ⟨3, _⟩ => rfl)).trans ?_
    refine (val_main_v16_apply (F := Ideal) x0 _).trans (congrArg x0 ?_)
    funext b; match b with | ⟨0, _⟩ => rfl | ⟨1, _⟩ => rfl | ⟨2, _⟩ => rfl | ⟨3, _⟩ => rfl
  · rw [dif_neg hd]
    have hd' : d.val - 128 < 64 := by omega
    refine (concatenate_pair_apply_right _ (val_main_v16 (F := Ideal) x0) (val_main_v26 (F := Ideal) x0 x3 x4 x5)
      concatenates_S1x2048x128x128_S1x2048x128x64_S1x2048x128x192_d3 (ix4 (0 : Fin 1) s h d) rfl rfl
      (ix4 (0 : Fin 1) s h (⟨d.val - 128, hd'⟩ : Fin 64)) (fun b => match b with | ⟨0, _⟩ => fun _ => rfl | ⟨1, _⟩ => fun _ => rfl | ⟨2, _⟩ => fun _ => rfl | ⟨3, _⟩ => fun hne => absurd rfl hne)
      (by show (d.val - 128) + 128 = d.val; omega)).trans ?_
    exact v26_at x0 x3 x4 x5 0 s h ⟨d.val - 128, hd'⟩

theorem q_ref (x0 : FVec Ideal S1x2048x128x192 .f32) (x3 x4 : FVec Ideal S2048x64 .f32) (x5 : IVec S1x2048 32) :
    val_main_v27 (F := Ideal) x0 x3 x4 x5 = Cert.RopeSpec.qOut x0 x3 x4 x5 := by
  funext i
  exact (congrArg (val_main_v27 (F := Ideal) x0 x3 x4 x5) (eq_ix4 i)).trans
    (v27_at x0 x3 x4 x5 (i 0) (i 1) (i 2) (i 3))

/-! ## kv's result -/

/-- The two-piece concatenate of k_pe's negated upper half and its lower half is "rotate half" of k_pe's row. -/
theorem v34_at (x2 : FVec Ideal S1x2048x1x64 .f32) (a : Fin 1) (s : Fin 2048) (z : Fin 1) (e : Fin 64) :
    val_main_v34 (F := Ideal) x2 (ix4 a s z e) = Cert.RopeSpec.rot (fun e' : Fin 64 => x2 (ix4 a s z e')) e := by
  unfold val_main_v34 Cert.RopeSpec.rot
  by_cases he : e.val < 32
  · rw [dif_pos he]
    refine (concatenate_pair_apply_left _ (val_main_v32 (F := Ideal) x2) (val_main_v33 (F := Ideal) x2)
      concatenates_S1x2048x1x32_S1x2048x1x32_S1x2048x1x64_d3 (ix4 a s z e) rfl
      (ix4 a s z (⟨e.val, he⟩ : Fin 32)) (fun b => match b with | ⟨0, _⟩ => rfl | ⟨1, _⟩ => rfl | ⟨2, _⟩ => rfl | ⟨3, _⟩ => rfl)).trans ?_
    refine (val_main_v32_apply (F := Ideal) x2 _).trans ?_
    show -(val_main_v31 (F := Ideal) x2 (ix4 a s z (⟨e.val, he⟩ : Fin 32))) = _
    refine congrArg Neg.neg ?_
    refine (val_main_v31_apply (F := Ideal) x2 _).trans (congrArg x2 ?_)
    funext b
    match b with
    | ⟨0, _⟩ => rfl
    | ⟨1, _⟩ => rfl
    | ⟨2, _⟩ => rfl
    | ⟨3, _⟩ => exact Fin.ext (by show 32 + e.val = e.val + 32; omega)
  · rw [dif_neg he]
    have he' : e.val - 32 < 32 := by omega
    refine (concatenate_pair_apply_right _ (val_main_v32 (F := Ideal) x2) (val_main_v33 (F := Ideal) x2)
      concatenates_S1x2048x1x32_S1x2048x1x32_S1x2048x1x64_d3 (ix4 a s z e) rfl rfl
      (ix4 a s z (⟨e.val - 32, he'⟩ : Fin 32)) (fun b => match b with | ⟨0, _⟩ => fun _ => rfl | ⟨1, _⟩ => fun _ => rfl | ⟨2, _⟩ => fun _ => rfl | ⟨3, _⟩ => fun hne => absurd rfl hne)
      (by show (e.val - 32) + 32 = e.val; omega)).trans ?_
    refine (val_main_v33_apply (F := Ideal) x2 _).trans (congrArg x2 ?_)
    funext b
    match b with
    | ⟨0, _⟩ => rfl
    | ⟨1, _⟩ => rfl
    | ⟨2, _⟩ => rfl
    | ⟨3, _⟩ => rfl

/-- The rotary embedding of k_pe's row with the two table rows of s. -/
theorem v36_at (x2 : FVec Ideal S1x2048x1x64 .f32) (x3 x4 : FVec Ideal S2048x64 .f32) (x5 : IVec S1x2048 32)
    (a : Fin 1) (s : Fin 2048) (z : Fin 1) (e : Fin 64) :
    val_main_v36 (F := Ideal) x2 x3 x4 x5 (ix4 a s z e)
      = Cert.RopeSpec.rope (fun e' : Fin 64 => x2 (ix4 a s z e')) (Cert.RopeSpec.tab x3 x5 s) (Cert.RopeSpec.tab x4 x5 s) e := by
  unfold Cert.RopeSpec.rope
  refine (val_main_v36_apply (F := Ideal) x2 x3 x4 x5 _).trans ?_
  show val_main_v30 (F := Ideal) x2 x3 x5 (ix4 a s z e) + val_main_v35 (F := Ideal) x2 x4 x5 (ix4 a s z e) = _
  refine congrArg₂ (· + ·) ?_ ?_
  · refine (val_main_v30_apply (F := Ideal) x2 x3 x5 _).trans ?_
    show x2 (ix4 a s z e) * val_main_v7 (F := Ideal) x3 x5 (ix4 a s z e) = _
    exact congrArg₂ (· * ·) rfl (v7_at x3 x5 a s z e)
  · refine (val_main_v35_apply (F := Ideal) x2 x4 x5 _).trans ?_
    show val_main_v34 (F := Ideal) x2 (ix4 a s z e) * val_main_v15 (F := Ideal) x4 x5 (ix4 a s z e) = _
    exact congrArg₂ (· * ·) (v34_at x2 a s z e) (v15_at x4 x5 a s z e)

/-- The embedded k_pe row, the same for every head. -/
theorem v37_at (x2 : FVec Ideal S1x2048x1x64 .f32) (x3 x4 : FVec Ideal S2048x64 .f32) (x5 : IVec S1x2048 32)
    (a : Fin 1) (s : Fin 2048) (h : Fin 128) (e : Fin 64) :
    val_main_v37 (F := Ideal) x2 x3 x4 x5 (ix4 a s h e)
      = Cert.RopeSpec.rope (fun e' : Fin 64 => x2 (ix4 (0 : Fin 1) s (0 : Fin 1) e'))
          (Cert.RopeSpec.tab x3 x5 s) (Cert.RopeSpec.tab x4 x5 s) e := by
  refine (val_main_v37_apply (F := Ideal) x2 x3 x4 x5 _).trans ?_
  have hi : idx_main_v37 (ix4 a s h e) = ix4 (0 : Fin 1) s (0 : Fin 1) e := by
    funext b; match b with | ⟨0, _⟩ => rfl | ⟨1, _⟩ => rfl | ⟨2, _⟩ => rfl | ⟨3, _⟩ => rfl
  rw [hi]
  exact v36_at x2 x3 x4 x5 0 s 0 e

/-- The key row: kv's lanes 0..127, then the embedded k_pe row. -/
theorem v38_at (x1 : FVec Ideal S1x2048x128x256 .f32) (x2 : FVec Ideal S1x2048x1x64 .f32) (x3 x4 : FVec Ideal S2048x64 .f32)
    (x5 : IVec S1x2048 32) (s : Fin 2048) (h : Fin 128) (d : Fin 192) :
    val_main_v38 (F := Ideal) x1 x2 x3 x4 x5 (ix4 (0 : Fin 1) s h d)
      = if hd : d.val < 128 then x1 (ix4 (0 : Fin 1) s h (⟨d.val, by omega⟩ : Fin 256))
        else Cert.RopeSpec.rope (fun e' : Fin 64 => x2 (ix4 (0 : Fin 1) s (0 : Fin 1) e'))
          (Cert.RopeSpec.tab x3 x5 s) (Cert.RopeSpec.tab x4 x5 s) (⟨d.val - 128, by omega⟩ : Fin 64) := by
  unfold val_main_v38
  by_cases hd : d.val < 128
  · rw [dif_pos hd]
    refine (concatenate_pair_apply_left _ (val_main_v28 (F := Ideal) x1) (val_main_v37 (F := Ideal) x2 x3 x4 x5)
      concatenates_S1x2048x128x128_S1x2048x128x64_S1x2048x128x192_d3 (ix4 (0 : Fin 1) s h d) rfl
      (ix4 (0 : Fin 1) s h (⟨d.val, hd⟩ : Fin 128)) (fun b => match b with | ⟨0, _⟩ => rfl | ⟨1, _⟩ => rfl | ⟨2, _⟩ => rfl | ⟨3, _⟩ => rfl)).trans ?_
    refine (val_main_v28_apply (F := Ideal) x1 _).trans (congrArg x1 ?_)
    funext b; match b with | ⟨0, _⟩ => rfl | ⟨1, _⟩ => rfl | ⟨2, _⟩ => rfl | ⟨3, _⟩ => rfl
  · rw [dif_neg hd]
    have hd' : d.val - 128 < 64 := by omega
    refine (concatenate_pair_apply_right _ (val_main_v28 (F := Ideal) x1) (val_main_v37 (F := Ideal) x2 x3 x4 x5)
      concatenates_S1x2048x128x128_S1x2048x128x64_S1x2048x128x192_d3 (ix4 (0 : Fin 1) s h d) rfl rfl
      (ix4 (0 : Fin 1) s h (⟨d.val - 128, hd'⟩ : Fin 64)) (fun b => match b with | ⟨0, _⟩ => fun _ => rfl | ⟨1, _⟩ => fun _ => rfl | ⟨2, _⟩ => fun _ => rfl | ⟨3, _⟩ => fun hne => absurd rfl hne)
      (by show (d.val - 128) + 128 = d.val; omega)).trans ?_
    exact v37_at x2 x3 x4 x5 0 s h ⟨d.val - 128, hd'⟩

/-- The padding value: the integer 0 converted is the real 0. -/
theorem padval_eq (i : S_.Idx) : val_main_call0_v0 (F := Ideal) i = (0 : EReal) := by
  show (((0#32 : BitVec 32).toInt : ℝ) : EReal) = 0
  simp

/-- The value row: kv's lanes 128..255, then 64 zeros (the high padding of the last axis). -/
theorem v39_at (x1 : FVec Ideal S1x2048x128x256 .f32) (s : Fin 2048) (h : Fin 128) (d : Fin 192) :
    val_main_v39 (F := Ideal) x1 (ix4 (0 : Fin 1) s h d)
      = if hd : d.val < 128 then x1 (ix4 (0 : Fin 1) s h (⟨128 + d.val, by omega⟩ : Fin 256)) else 0 := by
  unfold val_main_v39 pad
  split
  · rename_i hin
    have h3 : d.val < 128 := by
      have := (hin ⟨3, by decide⟩).2.2
      have e : (((ix4 (0 : Fin 1) s h d) ((⟨3, by decide⟩ : Fin S1x2048x128x128.rank).cast
        pads_S1x2048x128x128_S1x2048x128x192_000_000_000_0640.1)).val - 0) / (0 + 1) < 128 := this
      have e' : (d.val - 0) / (0 + 1) < 128 := e
      omega
    rw [dif_pos h3]
    refine (val_main_v29_apply (F := Ideal) x1 _).trans (congrArg x1 ?_)
    funext b
    match b with
    | ⟨0, _⟩ => exact Fin.ext (by show (0 - 0) / (0 + 1) = 0; omega)
    | ⟨1, _⟩ => exact Fin.ext (by show (s.val - 0) / (0 + 1) = s.val; omega)
    | ⟨2, _⟩ => exact Fin.ext (by show (h.val - 0) / (0 + 1) = h.val; omega)
    | ⟨3, _⟩ => exact Fin.ext (by show 128 + (d.val - 0) / (0 + 1) = 128 + d.val; omega)
  · rename_i hin
    have h3 : ¬ d.val < 128 := fun hd => hin (fun b => match b with
      | ⟨0, _⟩ => ⟨Nat.zero_le _, by show (0 - 0) % (0 + 1) = 0; omega, by show (0 - 0) / (0 + 1) < 1; omega⟩
      | ⟨1, _⟩ => ⟨Nat.zero_le _, by show (s.val - 0) % (0 + 1) = 0; omega, by show (s.val - 0) / (0 + 1) < 2048; omega⟩
      | ⟨2, _⟩ => ⟨Nat.zero_le _, by show (h.val - 0) % (0 + 1) = 0; omega, by show (h.val - 0) / (0 + 1) < 128; omega⟩
      | ⟨3, _⟩ => ⟨Nat.zero_le _, by show (d.val - 0) % (0 + 1) = 0; omega, by show (d.val - 0) / (0 + 1) < 128; omega⟩)
    rw [dif_neg h3]
    exact padval_eq _

/-- The two rows with the slot axis put in, at slot coordinate z of the unit axis. -/
theorem v40_at (x1 : FVec Ideal S1x2048x128x256 .f32) (x2 : FVec Ideal S1x2048x1x64 .f32) (x3 x4 : FVec Ideal S2048x64 .f32)
    (x5 : IVec S1x2048 32) (a : Fin 1) (s : Fin 2048) (z : Fin 1) (h : Fin 128) (d : Fin 192) :
    val_main_v40 (F := Ideal) x1 x2 x3 x4 x5 (ix5 a s z h d) = val_main_v38 (F := Ideal) x1 x2 x3 x4 x5 (ix4 (0 : Fin 1) s h d) := by
  refine (val_main_v40_apply (F := Ideal) x1 x2 x3 x4 x5 _).trans (congrArg _ ?_)
  funext b; match b with | ⟨0, _⟩ => rfl | ⟨1, _⟩ => rfl | ⟨2, _⟩ => rfl | ⟨3, _⟩ => rfl

theorem v41_at (x1 : FVec Ideal S1x2048x128x256 .f32) (a : Fin 1) (s : Fin 2048) (z : Fin 1) (h : Fin 128) (d : Fin 192) :
    val_main_v41 (F := Ideal) x1 (ix5 a s z h d) = val_main_v39 (F := Ideal) x1 (ix4 (0 : Fin 1) s h d) := by
  refine (val_main_v41_apply (F := Ideal) x1 _).trans (congrArg _ ?_)
  funext b; match b with | ⟨0, _⟩ => rfl | ⟨1, _⟩ => rfl | ⟨2, _⟩ => rfl | ⟨3, _⟩ => rfl

/-- kv's result at (a, s, j, h, d): slot 0 is the key row, slot 1 the value row. -/
theorem v42_at (x1 : FVec Ideal S1x2048x128x256 .f32) (x2 : FVec Ideal S1x2048x1x64 .f32) (x3 x4 : FVec Ideal S2048x64 .f32)
    (x5 : IVec S1x2048 32) (a : Fin 1) (s : Fin 2048) (j : Fin 2) (h : Fin 128) (d : Fin 192) :
    val_main_v42 (F := Ideal) x1 x2 x3 x4 x5 (ix5 a s j h d) = Cert.RopeSpec.kvAt x1 x2 x3 x4 x5 s j h d := by
  unfold val_main_v42 Cert.RopeSpec.kvAt Cert.RopeSpec.kvRow
  by_cases hj : j.val = 0
  · rw [if_pos hj]
    refine (concatenate_pair_apply_left _ (val_main_v40 (F := Ideal) x1 x2 x3 x4 x5) (val_main_v41 (F := Ideal) x1)
      concatenates_S1x2048x1x128x192_S1x2048x1x128x192_S1x2048x2x128x192_d2 (ix5 a s j h d) rfl
      (ix5 a s (0 : Fin 1) h d) (fun b => match b with | ⟨0, _⟩ => rfl | ⟨1, _⟩ => rfl | ⟨2, _⟩ => (by show 0 = j.val; omega) | ⟨3, _⟩ => rfl | ⟨4, _⟩ => rfl)).trans ?_
    refine (v40_at x1 x2 x3 x4 x5 a s 0 h d).trans ?_
    exact v38_at x1 x2 x3 x4 x5 s h d
  · rw [if_neg hj]
    refine (concatenate_pair_apply_right _ (val_main_v40 (F := Ideal) x1 x2 x3 x4 x5) (val_main_v41 (F := Ideal) x1)
      concatenates_S1x2048x1x128x192_S1x2048x1x128x192_S1x2048x2x128x192_d2 (ix5 a s j h d) rfl rfl
      (ix5 a s (0 : Fin 1) h d)
      (fun b => match b with
        | ⟨0, _⟩ => fun _ => rfl | ⟨1, _⟩ => fun _ => rfl | ⟨2, _⟩ => fun hne => absurd rfl hne
        | ⟨3, _⟩ => fun _ => rfl | ⟨4, _⟩ => fun _ => rfl)
      (by show 0 + 1 = j.val; omega)).trans ?_
    refine (v41_at x1 a s 0 h d).trans ?_
    exact v39_at x1 s h d

theorem kv_ref (x1 : FVec Ideal S1x2048x128x256 .f32) (x2 : FVec Ideal S1x2048x1x64 .f32) (x3 x4 : FVec Ideal S2048x64 .f32) (x5 : IVec S1x2048 32) :
    val_main_v42 (F := Ideal) x1 x2 x3 x4 x5 = Cert.RopeSpec.kvOut x1 x2 x3 x4 x5 := by
  funext i
  exact (congrArg (val_main_v42 (F := Ideal) x1 x2 x3 x4 x5) (eq_ix5 i)).trans
    (v42_at x1 x2 x3 x4 x5 (i 0) (i 1) (i 2) (i 3) (i 4))

end Cert.RefSide
-- ==== Proof.lean ====
/-
  Rotary position embedding of q and k_pe, and the packing of k and v: the kernel program against its jnp reference,
  over the extended reals.

  Both programs compute, for every sequence position s (with the table rows chosen by the position word of s: moved up
  by 2048 once when negative, then clamped into [0, 2047]):
    * q's result: each (position, head) row of q with lanes 0..127 copied and lanes 128..191 replaced by their rotary
      embedding  x · cos + rot(x) · sin,  rot(x) = (−x[32:], x[:32]);
    * kv's result: per (position, head) two 192-lane rows — kv's lanes 0..127 followed by the rotary embedding of
      k_pe's row of that position, and kv's lanes 128..255 followed by 64 zeros.
  The kernel program does it in two calls over blocks of 32 positions, between reshapes that drop and restore a
  leading unit axis; the reference does it with slices, concatenates, a padding and a stack. The two spell three things
  differently, each the same function on every extended real: the kernel writes `0 − x` where the reference negates;
  the kernel's zeros are the float word 0 where the reference pads with the integer 0 converted; the table gathers
  have differently shaped index arrays. No other law is used, so the precondition (finite inputs) is never opened.

  The five claims: the three frames (the two kernel programs' generated frame theorems; the reference's generated run
  with its results dropped); `preserves` is `True` (the idealization rewrote nothing); `algebraic` — both programs end
  with their two results at `qOut` and `kvOut` of the six arguments (Proof/Spec.lean): the kernel program by its run
  with the results named (Proof/KernelRun.lean) read through the two calls (Proof/QCall.lean, Proof/KVCall.lean) and
  the host operations around them (Proof/Glue.lean); the reference by its generated run read stage by stage
  (Proof/RefSide.lean).
-/
import proofs.«138987_j61521111548175_2_alg».proof.Defs
import proofs.«138987_j61521111548175_2_alg».proof.Proof.Gen.Kernel
import proofs.«138987_j61521111548175_2_alg».proof.Proof.Gen.Kernel.Skeleton
import proofs.«138987_j61521111548175_2_alg».proof.Proof.Gen.Kernel.Launch
import proofs.«138987_j61521111548175_2_alg».proof.Proof.Gen.Kernel.Points
import proofs.«138987_j61521111548175_2_alg».proof.Proof.Gen.Kernel.Frame
import proofs.«138987_j61521111548175_2_alg».proof.Proof.Gen.KernelIdeal
import proofs.«138987_j61521111548175_2_alg».proof.Proof.Gen.KernelIdeal.Skeleton
import proofs.«138987_j61521111548175_2_alg».proof.Proof.Gen.KernelIdeal.Launch
import proofs.«138987_j61521111548175_2_alg».proof.Proof.Gen.KernelIdeal.Points
import proofs.«138987_j61521111548175_2_alg».proof.Proof.Gen.KernelIdeal.Frame
import proofs.«138987_j61521111548175_2_alg».proof.Proof.Gen.ReferenceIdeal
import proofs.«138987_j61521111548175_2_alg».proof.Proof.Gen.ReferenceIdeal.Run
import proofs.«138987_j61521111548175_2_alg».proof.Proof.Gen.ReferenceIdeal.Read
import proofs.«138987_j61521111548175_2_alg».proof.Proof.Gen.Pre_finite_inputs
import proofs.«138987_j61521111548175_2_alg».proof.Proof.Spec
import proofs.«138987_j61521111548175_2_alg».proof.Proof.KernelRun
import proofs.«138987_j61521111548175_2_alg».proof.Proof.Glue
import proofs.«138987_j61521111548175_2_alg».proof.Proof.RefSide
import Idealize.ShloMosaic.Adequacy
import Idealize.ShloMosaic.Init

noncomputable section

namespace Cert.Proof

open Idealize.ShloMosaic Idealize.ShloMosaic.TcCoe Idealize.SL.Sem Cert.RopeSpec

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with q's result at `qOut` and kv's result at
    `kvOut` of those arguments, and with the arguments unchanged. -/
theorem algebraic : Cert.algebraic_KernelIdeal_ReferenceIdeal := by
  intro m ρ m' ρ' _ hagree
  refine ⟨fun c => qOut (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => kvOut (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Results.run m ρ)
    obtain ⟨h22, h23, hargs⟩ := h c
    exact ⟨h22.trans (Cert.KernelIdeal.Glue.res_q m ρ c), h23.trans (Cert.KernelIdeal.Glue.res_kv m ρ c), hargs⟩
  · refine (θ_run Cert.ReferenceIdeal.defs _ _).mono (fun r h c => ?_) (Cert.ReferenceIdeal.Value.run (F := Ideal) m' ρ')
    obtain ⟨h27, h42, hargs⟩ := h c
    obtain ⟨a0, a1, a2, a3, a4, a5⟩ := hagree c
    refine ⟨h27.trans ?_, h42.trans ?_, hargs⟩
    · rw [Cert.ReferenceIdeal.Read.val_main_v27_eq, Cert.RefSide.q_ref, a0, a3, a4, a5]
    · rw [Cert.ReferenceIdeal.Read.val_main_v42_eq, Cert.RefSide.kv_ref, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
